-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v37) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S32768x1x1024 : S_.BroadcastsInDim S32768x1x1024 (![] : Fin 0 → Fin S32768x1x1024.rank)
  reducesTo_S32768x1x1024_S_d0_1_2 : S32768x1x1024.ReducesTo [0, 1, 2] S_
  bcast_S_S1x2048 : S_.BroadcastsInDim S1x2048 (![] : Fin 0 → Fin S1x2048.rank)
  reducesTo_S1x2048_S_d0_1 : S1x2048.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S1x1024 .f32) (main_arg1 : FVec F S32768x1x1024 .f32) (main_arg2 : FVec F S1x2048 .f32) (main_arg3 : FVec F S1 .f32) : IVec S_ 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S32768x1x1024 .f32 := Host.absf main_arg1
  let main_cst_0 : FVec F S_ .f32 := constant S_ .f32 0x7F800000#32
  let main_v5 : FVec F S32768x1x1024 .f32 := broadcastInDim S32768x1x1024 ![] bcast_S_S32768x1x1024 main_cst_0
  let main_v6 : IVec S32768x1x1024 1 := cmpf .olt main_v4 main_v5
  let main_c_1 : IVec S_ 1 := constantI S_ 1 1#1
  let main_v7 : IVec S_ 1 := (fun x v => Host.reduce IntOp.andi x v reducesTo_S32768x1x1024_S_d0_1_2 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S32768x1024 : Shape := ⟨2, ![32768, 1024]⟩
abbrev S1024x1 : Shape := ⟨2, ![1024, 1]⟩
abbrev S1x1 : Shape := ⟨2, ![1, 1]⟩
abbrev S1x32768 : Shape := ⟨2, ![1, 32768]⟩
abbrev S2x1x1 : Shape := ⟨3, ![2, 1, 1]⟩
abbrev S2x1x1024 : Shape := ⟨3, ![2, 1, 1024]⟩
abbrev S2048x1024 : Shape := ⟨2, ![2048, 1024]⟩
abbrev S1x1x1 : Shape := ⟨3, ![1, 1, 1]⟩
abbrev S1x1x1024 : Shape := ⟨3, ![1, 1, 1024]⟩

abbrev nBuf : Space → Nat
  | .hbm => 47
  | .vmem => 15
  | .smem => 0
  | _ => 0

abbrev bufTy : (tb : Table) → Fin (tcTables nBuf tb) → BufTy
  | .hbm, ⟨0, _⟩ => ⟨S1x1024, .f32⟩
  | .hbm, ⟨1, _⟩ => ⟨S32768x1x1024, .f32⟩
  | .hbm, ⟨2, _⟩ => ⟨S1x2048, .f32⟩
  | .hbm, ⟨3, _⟩ => ⟨S1, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1, .f32⟩
  | .hbm, ⟨8, _⟩ => ⟨S1x1, .f32⟩
  | .hbm, ⟨9, _⟩ => ⟨S1x1, .f32⟩
  | .hbm, ⟨10, _⟩ => ⟨S1x1, .f32⟩
  | .hbm, ⟨11, _⟩ => ⟨S1x32768, .f32⟩
  | .hbm, ⟨12, _⟩ => ⟨S2x1x1, .f32⟩
  | .hbm, ⟨13, _⟩ => ⟨S2x1x1, .f32⟩
  | .hbm, ⟨14, _⟩ => ⟨S2x1x1024, .f32⟩
  | .hbm, ⟨15, _⟩ => ⟨S1x1x1, .f32⟩
  | .hbm, ⟨16, _⟩ => ⟨S1x1, .f32⟩
  | .hbm, ⟨17, _⟩ => ⟨S1x1x1, .f32⟩
  | .hbm, ⟨18, _⟩ => ⟨S1x1, .f32⟩
  | .hbm, ⟨19, _⟩ => ⟨S1x1x1, .f32⟩
  | .hbm, ⟨20, _⟩ => ⟨S1x1, .f32⟩
  | .hbm, ⟨21, _⟩ => ⟨S1x1x1, .f32⟩
  | .hbm, ⟨22, _⟩ => ⟨S1x1, .f32⟩
  | .hbm, ⟨23, _⟩ => ⟨S1x1x1024, .f32⟩
  | .hbm, ⟨24, _⟩ => ⟨S1x1024, .f32⟩
  | .hbm, ⟨25, _⟩ => ⟨S1x1x1024, .f32⟩
  | .hbm, ⟨26, _⟩ => ⟨S1x1024, .f32⟩
  | .hbm, ⟨27, _⟩ => ⟨S1x1, .f32⟩
  | .hbm, ⟨28, _⟩ => ⟨S1x1, .f32⟩
  | .hbm, ⟨29, _⟩ => ⟨S1x1, .f32⟩
  | .hbm, ⟨30, _⟩ => ⟨S1x1, .f32⟩
  | .hbm, ⟨31, _⟩ => ⟨S1x1, .f32⟩
  | .hbm, ⟨32, _⟩ => ⟨S1x1, .f32⟩
  | .hbm, ⟨33, _⟩ => ⟨S1x1, .f32⟩
  | .hbm, ⟨34, _⟩ => ⟨S1x1, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x32768, .f32⟩
  | .hbm, ⟨41, _⟩ => ⟨S1x32768, .f32⟩
  | .hbm, ⟨42, _⟩ => ⟨S1x32768, .f32⟩
  | .hbm, ⟨43, _⟩ => ⟨S1x32768, .f32⟩
  | .hbm, ⟨44, _⟩ => ⟨S1x32768, .f32⟩
  | .hbm, ⟨45, _⟩ => ⟨S1x1024, .f32⟩
  | .hbm, ⟨46, _⟩ => ⟨S1x1024, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x1, .f32⟩
  | .local _ .vmem, ⟨4, _⟩ => ⟨S1x2048, .f32⟩
  | .local _ .vmem, ⟨5, _⟩ => ⟨S1x2048, .f32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1024, .f32⟩
  | .local _ .vmem, ⟨11, _⟩ => ⟨S1x1x1024, .f32⟩
  | .local _ .vmem, ⟨12, _⟩ => ⟨S1x1, .f32⟩
  | .local _ .vmem, ⟨13, _⟩ => ⟨S1x1, .f32⟩
  | .local _ .vmem, ⟨14, _⟩ => ⟨S1x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_23 : BitVec 32 := 0#32
  let v46 : BitVec 1 := Scalar.cmpi .ne v45 c0_i32_23
  v46

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S32768x1x1024_S32768x1024 : S32768x1x1024.ShapeCasts S32768x1024
  slices_S1x2048_S1x1024_0_0 : S1x2048.Slices ![0, 0] S1x1024
  slices_S1x2048_S1x1024_0_1024 : S1x2048.Slices ![0, 1024] S1x1024
  transposes_S1x1024_S1024x1_1_0 : S1x1024.Transposes [1, 0] S1024x1
  bcast_S1_S1x1_1 : S1.BroadcastsInDim S1x1 (![1] : Fin 1 → Fin S1x1.rank)
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  bitsLt_bf16_f32 : FTy.bits .bf16 < FTy.bits .f32
  broadcasts_S1x1_S1x2048 : S1x1.Broadcasts S1x2048
  reduces_S1x2048_S1 : S1x2048.Reduces [1] S1
  shapeCasts_S1_S1x1 : S1.ShapeCasts S1x1
  broadcasts_S1x1_S1x1024 : S1x1.Broadcasts S1x1024
  inb_S1x2048_S1x2048_0_0 : ∀ a, (![0, 0] : Fin 2 → Nat) a + S1x2048.size a ≤ S1x2048.size a
  h_S1x2048 : 0 < S1x2048.numel
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S1x1024_S1x1x1024 : S1x1024.ShapeCasts S1x1x1024
  inb_S1x1x1024_S1x1x1024_0_0_0 : ∀ a, (![0, 0, 0] : Fin 3 → Nat) a + S1x1x1024.size a ≤ S1x1x1024.size a
  h_S1x1x1024 : 0 < S1x1x1024.numel
  slices_S2x1x1_S1x1x1_0_0_0 : S2x1x1.Slices ![0, 0, 0] S1x1x1
  shapeCasts_S1x1x1_S1x1 : S1x1x1.ShapeCasts S1x1
  slices_S2x1x1_S1x1x1_1_0_0 : S2x1x1.Slices ![1, 0, 0] S1x1x1
  slices_S2x1x1024_S1x1x1024_0_0_0 : S2x1x1024.Slices ![0, 0, 0] S1x1x1024
  shapeCasts_S1x1x1024_S1x1024 : S1x1x1024.ShapeCasts S1x1024
  slices_S2x1x1024_S1x1x1024_1_0_0 : S2x1x1024.Slices ![1, 0, 0] S1x1x1024
  bcast_S1x1_S1x1024_0_1 : S1x1.BroadcastsInDim S1x1024 (![0, 1] : Fin 2 → Fin S1x1024.rank)
  bcast_S1x1_S1x32768_0_1 : S1x1.BroadcastsInDim S1x32768 (![0, 1] : Fin 2 → Fin S1x32768.rank)
  dot_S1x1024_S1024x1_S1x1_1_0_0_1_n_n_wf : DotDims.WF S1x1024 S1024x1 S1x1 [1] [0] [0] [1] [] []
  dot_S1x1024_S2048x1024_S1x2048_1_1_0_0_n_n_wf : DotDims.WF S1x1024 S2048x1024 S1x2048 [1] [1] [0] [0] [] []
  dot_S1x2048_S2048x1024_S1x1024_1_0_0_1_n_n_wf : DotDims.WF S1x2048 S2048x1024 S1x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S32768x1024.size a
  hwx0_0 : ∀ i : grid0.Coords, EltTy.bits .f32 = 32 ∨ (Rect.block (s := S32768x1024) S2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x32768.size a
  hwx0_3 : ∀ i : grid0.Coords, EltTy.bits .f32 = 32 ∨ (Rect.block (s := S1x32768) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S2x1x1024.size a
  hwx0_6 : ∀ i : grid0.Coords, EltTy.bits .f32 = 32 ∨ (Rect.block (s := S2x1x1024) S1x1x1024.size (cc0_transform_6 i) (hinb0_6 i)).WholeWords (EltTy.packing .f32)

variable [Facts₀]

def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf
def dot_S1x1024_S2048x1024_S1x2048_1_1_0_0_n_n : DotDims S1x1024 S2048x1024 S1x2048 where
  lhsContracting := [1]
  rhsContracting := [1]
  lhsNonContracting := [0]
  rhsNonContracting := [0]
  lhsBatch := []
  rhsBatch := []
  wf := dot_S1x1024_S2048x1024_S1x2048_1_1_0_0_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7_0) S1x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7_2) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v7_3) S1x1x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

class Facts : Prop extends Facts₀ where

variable [Facts]
-- ==== ReferenceIdeal.lean ====
abbrev S1x1024 : Shape := ⟨2, ![1, 1024]⟩
abbrev S32768x1x1024 : Shape := ⟨3, ![32768, 1, 1024]⟩
abbrev S1x2048 : Shape := ⟨2, ![1, 2048]⟩
abbrev S1 : Shape := ⟨1, ![1]⟩
abbrev S32768x1024 : Shape := ⟨2, ![32768, 1024]⟩
abbrev S1024x1 : Shape := ⟨2, ![1024, 1]⟩
abbrev S32768x1 : Shape := ⟨2, ![32768, 1]⟩
abbrev S1x1 : Shape := ⟨2, ![1, 1]⟩
abbrev S1x32768 : Shape := ⟨2, ![1, 32768]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S32768x1x1024, .f32⟩
  | .hbm, ⟨2, _⟩ => ⟨S1x2048, .f32⟩
  | .hbm, ⟨3, _⟩ => ⟨S1, .f32⟩
  | .hbm, ⟨4, _⟩ => ⟨S32768x1024, .f32⟩
  | .hbm, ⟨5, _⟩ => ⟨S1x1024, .f32⟩
  | .hbm, ⟨6, _⟩ => ⟨S1x1024, .f32⟩
  | .hbm, ⟨7, _⟩ => ⟨S1024x1, .f32⟩
  | .hbm, ⟨8, _⟩ => ⟨S32768x1, .f32⟩
  | .hbm, ⟨9, _⟩ => ⟨S1024x1, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S32768x1, .f32⟩
  | .hbm, ⟨14, _⟩ => ⟨S32768x1, .f32⟩
  | .hbm, ⟨15, _⟩ => ⟨S1x32768, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S1x1, .f32⟩
  | .hbm, ⟨22, _⟩ => ⟨S1x32768, .f32⟩
  | .hbm, ⟨23, _⟩ => ⟨S1x32768, .f32⟩
  | .hbm, ⟨24, _⟩ => ⟨S1x32768, .f32⟩
  | .hbm, ⟨25, _⟩ => ⟨S_, .f32⟩
  | .hbm, ⟨26, _⟩ => ⟨S1, .f32⟩
  | .hbm, ⟨27, _⟩ => ⟨S1x1, .f32⟩
  | .hbm, ⟨28, _⟩ => ⟨S1x32768, .f32⟩
  | .hbm, ⟨29, _⟩ => ⟨S1x32768, .f32⟩
  | .hbm, ⟨30, _⟩ => ⟨S1x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]

class Facts₀ : Prop where
  shapeCasts_S32768x1x1024_S32768x1024 : S32768x1x1024.ShapeCasts S32768x1024
  slices_S1x2048_S1x1024_0_0 : S1x2048.Slices ![0, 0] S1x1024
  slices_S1x2048_S1x1024_0_1024 : S1x2048.Slices ![0, 1024] S1x1024
  transposes_S1x1024_S1024x1_1_0 : S1x1024.Transposes [1, 0] S1024x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S1x32768 : S32768x1.ShapeCasts S1x32768
  reducesTo_S1x32768_S1_d1 : S1x32768.ReducesTo [1] S1
  h_S_ : 0 < S_.numel
  bcast_S_S1 : S_.BroadcastsInDim S1 (![] : Fin 0 → Fin S1.rank)
  bcast_S1_S1x1_0 : S1.BroadcastsInDim S1x1 (![0] : Fin 1 → Fin S1x1.rank)
  bcast_S1x1_S1x32768_0_1 : S1x1.BroadcastsInDim S1x32768 (![0, 1] : Fin 2 → Fin S1x32768.rank)
  dot_S32768x1024_S1024x1_S32768x1_1_0_0_1_n_n_wf : DotDims.WF S32768x1024 S1024x1 S32768x1 [1] [0] [0] [1] [] []
  dot_S1x1024_S1024x1_S1x1_1_0_0_1_n_n_wf : DotDims.WF S1x1024 S1024x1 S1x1 [1] [0] [0] [1] [] []
  dot_S1x32768_S32768x1024_S1x1024_1_0_0_1_n_n_wf : DotDims.WF S1x32768 S32768x1024 S1x1024 [1] [0] [0] [1] [] []

variable [Facts₀]

def dot_S32768x1024_S1024x1_S32768x1_1_0_0_1_n_n : DotDims S32768x1024 S1024x1 S32768x1 where
  lhsContracting := [1]
  rhsContracting := [0]
  lhsNonContracting := [0]
  rhsNonContracting := [1]
  lhsBatch := []
  rhsBatch := []
  wf := dot_S32768x1024_S1024x1_S32768x1_1_0_0_1_n_n_wf
def dot_S1x1024_S1024x1_S1x1_1_0_0_1_n_n : DotDims S1x1024 S1024x1 S1x1 where
  lhsContracting := [1]
  rhsContracting := [0]
  lhsNonContracting := [0]
  rhsNonContracting := [1]
  lhsBatch := []
  rhsBatch := []
  wf := dot_S1x1024_S1024x1_S1x1_1_0_0_1_n_n_wf
def dot_S1x32768_S32768x1024_S1x1024_1_0_0_1_n_n : DotDims S1x32768 S32768x1024 S1x1024 where
  lhsContracting := [1]
  rhsContracting := [0]
  lhsNonContracting := [0]
  rhsNonContracting := [1]
  lhsBatch := []
  rhsBatch := []
  wf := dot_S1x32768_S32768x1024_S1x1024_1_0_0_1_n_n_wf

class Facts : Prop extends Facts₀ where

variable [Facts]
-- ==== Proof.Spec.lean ====
/-
  The attention step as plain mathematics over the extended reals.

  The inputs are a decoder state `d` (1 × 1024), an encoder memory `E` (32768 × 1 × 1024), a weight row `W`
  (1 × 2048: its first half meets the decoder state, its second half the encoder rows) and a bias `b`.
  Row `t` of the memory gets the score  ⟨E t, W₂⟩ + (⟨d, W₁⟩ + b);  the weights are the softmax of the scores
  (shifted by their maximum), and the output is the weighted sum of the rows.

  Two readings of that are stated here. The first is the direct one: one maximum, one normaliser, one weighted
  sum over all 32768 rows. The second is what is left after the rows have been consumed in two halves, each half
  leaving a maximum `A4`, a normaliser `A5` and a weighted sum `A6` taken against its own maximum: the halves are
  merged by rescaling each with `exp (its maximum - the common maximum)`.
-/
import Idealize.ShloMosaic.PureOps.Ideal
import Idealize.ShloMosaic.Lib.ValueIdx

noncomputable section

namespace Attn

open Idealize.ShloMosaic Idealize.ShloMosaic.ValueIdx

abbrev SD : Shape := ⟨2, ![1, 1024]⟩
abbrev SE : Shape := ⟨3, ![32768, 1, 1024]⟩
abbrev SW : Shape := ⟨2, ![1, 2048]⟩
abbrev SB : Shape := ⟨1, ![1]⟩
abbrev SS : Shape := ⟨2, ![1, 32768]⟩
abbrev SM : Shape := ⟨3, ![2, 1, 1]⟩
abbrev SA : Shape := ⟨3, ![2, 1, 1024]⟩

/-- Column `k` of the weight row's first half (the decoder's). -/
def wDec (k : Fin 1024) : Fin 2048 := ⟨k.val, by have := k.isLt; omega⟩
/-- Column `k` of the weight row's second half (the encoder's). -/
def wEnc (k : Fin 1024) : Fin 2048 := ⟨1024 + k.val, by have := k.isLt; omega⟩

/-- The decoder's contribution to every score: ⟨d, W₁⟩ + b. -/
def decBias (d : SD.Idx → EReal) (W : SW.Idx → EReal) (b : SB.Idx → EReal) : EReal :=
  (∑ k : Fin 1024, d (ix2 0 k) * W (ix2 0 (wDec k))) + b (ix1 0)

/-- The score of memory row `t`: ⟨E t, W₂⟩ + (⟨d, W₁⟩ + b). -/
def score (d : SD.Idx → EReal) (E : SE.Idx → EReal) (W : SW.Idx → EReal) (b : SB.Idx → EReal) (t : Fin 32768) : EReal :=
  (∑ k : Fin 1024, E (ix3 t 0 k) * W (ix2 0 (wEnc k))) + decBias d W b

/-! ## The direct reading -/

/-- The softmax weight of row `t`: exp (score t - max) / Σ exp (score - max). -/
def refWeight (sc : Fin 32768 → EReal) (t : Fin 32768) : EReal :=
  Ideal.div (Ideal.exp (sc t - Finset.univ.sup sc)) (∑ t' : Fin 32768, Ideal.exp (sc t' - Finset.univ.sup sc))

/-- Column `h` of the output: the weighted sum of the rows. -/
def refOut (sc : Fin 32768 → EReal) (E : SE.Idx → EReal) (h : Fin 1024) : EReal :=
  ∑ t : Fin 32768, refWeight sc t * E (ix3 t 0 h)

/-! ## The merged reading -/

/-- The common maximum of the two halves. -/
def mrgMax (A4 : SM.Idx → EReal) : EReal := max (A4 (ix3 0 0 0)) (A4 (ix3 1 0 0))
/-- The factor that rescales half `c` to the common maximum. -/
def mrgC (A4 : SM.Idx → EReal) (c : Fin 2) : EReal := Ideal.exp (A4 (ix3 c 0 0) - mrgMax A4)
/-- The merged normaliser. -/
def mrgL (A4 A5 : SM.Idx → EReal) : EReal := A5 (ix3 0 0 0) * mrgC A4 0 + A5 (ix3 1 0 0) * mrgC A4 1
/-- The weight of row `t` from its stored score `A3` and the merged maximum and normaliser. -/
def tailWeight (A3 : SS.Idx → EReal) (A4 A5 : SM.Idx → EReal) (t : Fin 32768) : EReal :=
  Ideal.div (Ideal.exp (A3 (ix2 0 t) - mrgMax A4)) (mrgL A4 A5)
/-- Column `h` of the output from the two halves' weighted sums. -/
def tailOut (A4 A5 : SM.Idx → EReal) (A6 : SA.Idx → EReal) (h : Fin 1024) : EReal :=
  Ideal.div (A6 (ix3 0 0 h) * mrgC A4 0 + A6 (ix3 1 0 h) * mrgC A4 1) (mrgL A4 A5)

end Attn

end
-- ==== Proof.KHost.lean ====
/-
  The host side of the kernel program: the operations before the pipelined region (a reshape of the memory, the
  encoder half of the weight row, the decoder's contribution to every score) and the operations after it (the two
  halves' maxima, normalisers and weighted sums merged into the softmax weights and the output), each read at an
  index, and the run of the whole program stated over the region's final arrays.
-/
import proofs.«170956_j42322607735440_2_alg».proof.Proof.Gen.KernelIdeal.Frame
import proofs.«170956_j42322607735440_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws

noncomputable section

namespace Cert.KernelIdeal.KHost

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-! ## The layout operations of the tail, read at an index -/

section Layout
variable {α : Type}

/-- Row `c` of a 2×1×1 array, sliced out and reshaped to 1×1, is the array at `(c, 0, 0)`. -/
theorem pick0 (X : S2x1x1.Idx → α) (h1 : S2x1x1.Slices ![0, 0, 0] S1x1x1) (h2 : S1x1x1.ShapeCasts S1x1) (i : S1x1.Idx) :
    shapeCast S1x1 (extractStridedSlice S1x1x1 ![0, 0, 0] X h1) h2 i = X (ix3 0 0 0) := by
  refine (shapeCast_apply _ h2 i (ix3 0 0 0) ?_).trans ?_
  · rw [Shape.rowMajor_val_three, Shape.rowMajor_val_two]
    have h0 := (i 0).isLt; have h1' := (i 1).isLt
    show (0 * 1 + 0) * 1 + 0 = (i 0).val * 1 + (i 1).val
    change (i 0).val < 1 at h0; change (i 1).val < 1 at h1'
    omega
  · exact extractStridedSlice_apply _ X h1 _ _ fun a => match a with
      | ⟨0, _⟩ => rfl | ⟨1, _⟩ => rfl | ⟨2, _⟩ => rfl

theorem pick1 (X : S2x1x1.Idx → α) (h1 : S2x1x1.Slices ![1, 0, 0] S1x1x1) (h2 : S1x1x1.ShapeCasts S1x1) (i : S1x1.Idx) :
    shapeCast S1x1 (extractStridedSlice S1x1x1 ![1, 0, 0] X h1) h2 i = X (ix3 1 0 0) := by
  refine (shapeCast_apply _ h2 i (ix3 0 0 0) ?_).trans ?_
  · rw [Shape.rowMajor_val_three, Shape.rowMajor_val_two]
    have h0 := (i 0).isLt; have h1' := (i 1).isLt
    show (0 * 1 + 0) * 1 + 0 = (i 0).val * 1 + (i 1).val
    change (i 0).val < 1 at h0; change (i 1).val < 1 at h1'
    omega
  · exact extractStridedSlice_apply _ X h1 _ _ fun a => match a with
      | ⟨0, _⟩ => rfl | ⟨1, _⟩ => rfl | ⟨2, _⟩ => rfl

/-- Row `0` of a 2×1×1024 array, sliced out and reshaped to 1×1024, at column `h`. -/
theorem row0 (X : S2x1x1024.Idx → α) (h1 : S2x1x1024.Slices ![0, 0, 0] S1x1x1024) (h2 : S1x1x1024.ShapeCasts S1x1024)
    (i : S1x1024.Idx) :
    shapeCast S1x1024 (extractStridedSlice S1x1x1024 ![0, 0, 0] X h1) h2 i = X (ix3 0 0 (i 1)) := by
  refine (shapeCast_apply _ h2 i (ix3 0 0 (i 1)) ?_).trans ?_
  · rw [Shape.rowMajor_val_three, Shape.rowMajor_val_two]
    have h0 := (i 0).isLt
    show (0 * 1 + 0) * 1024 + (i 1).val = (i 0).val * 1024 + (i 1).val
    change (i 0).val < 1 at h0
    omega
  · exact extractStridedSlice_apply _ X h1 _ _ fun a => match a with
      | ⟨0, _⟩ => rfl | ⟨1, _⟩ => rfl | ⟨2, _⟩ => by show (i 1).val = 0 + (i 1).val; omega

theorem row1 (X : S2x1x1024.Idx → α) (h1 : S2x1x1024.Slices ![1, 0, 0] S1x1x1024) (h2 : S1x1x1024.ShapeCasts S1x1024)
    (i : S1x1024.Idx) :
    shapeCast S1x1024 (extractStridedSlice S1x1x1024 ![1, 0, 0] X h1) h2 i = X (ix3 1 0 (i 1)) := by
  refine (shapeCast_apply _ h2 i (ix3 0 0 (i 1)) ?_).trans ?_
  · rw [Shape.rowMajor_val_three, Shape.rowMajor_val_two]
    have h0 := (i 0).isLt
    show (0 * 1 + 0) * 1024 + (i 1).val = (i 0).val * 1024 + (i 1).val
    change (i 0).val < 1 at h0
    omega
  · exact extractStridedSlice_apply _ X h1 _ _ fun a => match a with
      | ⟨0, _⟩ => rfl | ⟨1, _⟩ => rfl | ⟨2, _⟩ => by show (i 1).val = 0 + (i 1).val; omega

/-- A 1×1 value broadcast along a row is that value everywhere. -/
theorem bcastRow {n : Nat} (x : S1x1.Idx → α) (h : S1x1.BroadcastsInDim ⟨2, ![1, n]⟩ (![0, 1] : Fin 2 → Fin 2))
    (j : (⟨2, ![1, n]⟩ : Shape).Idx) :
    broadcastInDim ⟨2, ![1, n]⟩ ![0, 1] h x j = x (ix2 0 0) :=
  broadcastInDim_apply _ h x j _ fun a => match a with
    | ⟨0, _⟩ => rfl | ⟨1, _⟩ => rfl

/-- An index of a one-row matrix is its column. -/
theorem row_ix {n : Nat} (i : (⟨2, ![1, n]⟩ : Shape).Idx) : i = ix2 0 (i 1) := by
  funext d
  match d with
  | ⟨0, _⟩ => exact Subsingleton.elim (α := Fin 1) _ _
  | ⟨1, _⟩ => rfl

/-- A 1×1 value broadcast along a row of 32768, as a function. -/
theorem bcastS (x : S1x1.Idx → α) (h : S1x1.BroadcastsInDim S1x32768 (![0, 1] : Fin 2 → Fin S1x32768.rank)) :
    broadcastInDim S1x32768 ![0, 1] h x = fun _ => x (ix2 0 0) :=
  funext fun j => broadcastInDim_apply _ h x j _ fun a => match a with
    | ⟨0, _⟩ => rfl | ⟨1, _⟩ => rfl

/-- A 1×1 value broadcast along a row of 1024, as a function. -/
theorem bcastH (x : S1x1.Idx → α) (h : S1x1.BroadcastsInDim S1x1024 (![0, 1] : Fin 2 → Fin S1x1024.rank)) :
    broadcastInDim S1x1024 ![0, 1] h x = fun _ => x (ix2 0 0) :=
  funext fun j => broadcastInDim_apply _ h x j _ fun a => match a with
    | ⟨0, _⟩ => rfl | ⟨1, _⟩ => rfl

/-- Half `0`'s entry of a 2×1×1 array as a 1×1 value. -/
def pk0 (X : S2x1x1.Idx → α) (h1 : S2x1x1.Slices ![0, 0, 0] S1x1x1) (h2 : S1x1x1.ShapeCasts S1x1) : S1x1.Idx → α :=
  fun i => shapeCast S1x1 (extractStridedSlice S1x1x1 ![0, 0, 0] X h1) h2 i
/-- Half `1`'s entry of a 2×1×1 array as a 1×1 value. -/
def pk1 (X : S2x1x1.Idx → α) (h1 : S2x1x1.Slices ![1, 0, 0] S1x1x1) (h2 : S1x1x1.ShapeCasts S1x1) : S1x1.Idx → α :=
  fun i => shapeCast S1x1 (extractStridedSlice S1x1x1 ![1, 0, 0] X h1) h2 i
/-- Half `0`'s row of a 2×1×1024 array as a 1×1024 row. -/
def rw0 (X : S2x1x1024.Idx → α) (h1 : S2x1x1024.Slices ![0, 0, 0] S1x1x1024) (h2 : S1x1x1024.ShapeCasts S1x1024) : S1x1024.Idx → α :=
  fun i => shapeCast S1x1024 (extractStridedSlice S1x1x1024 ![0, 0, 0] X h1) h2 i
/-- Half `1`'s row of a 2×1×1024 array as a 1×1024 row. -/
def rw1 (X : S2x1x1024.Idx → α) (h1 : S2x1x1024.Slices ![1, 0, 0] S1x1x1024) (h2 : S1x1x1024.ShapeCasts S1x1024) : S1x1024.Idx → α :=
  fun i => shapeCast S1x1024 (extractStridedSlice S1x1x1024 ![1, 0, 0] X h1) h2 i

theorem pk0_eq (X : S2x1x1.Idx → α) (h1) (h2) : pk0 X h1 h2 = fun _ => X (ix3 0 0 0) := funext (pick0 X h1 h2)
theorem pk1_eq (X : S2x1x1.Idx → α) (h1) (h2) : pk1 X h1 h2 = fun _ => X (ix3 1 0 0) := funext (pick1 X h1 h2)
theorem rw0_eq (X : S2x1x1024.Idx → α) (h1) (h2) : rw0 X h1 h2 = fun i => X (ix3 0 0 (i 1)) := funext (row0 X h1 h2)
theorem rw1_eq (X : S2x1x1024.Idx → α) (h1) (h2) : rw1 X h1 h2 = fun i => X (ix3 1 0 (i 1)) := funext (row1 X h1 h2)

end Layout

/-! ## The arithmetic after the region, over any arrays -/

section Tail
variable (X0 : S1x32768.Idx → EReal) (X1 X2 : S2x1x1.Idx → EReal) (X3 : S2x1x1024.Idx → EReal)
  (hbS : S1x1.BroadcastsInDim S1x32768 (![0, 1] : Fin 2 → Fin S1x32768.rank))
  (hbH : S1x1.BroadcastsInDim S1x1024 (![0, 1] : Fin 2 → Fin S1x1024.rank))
  (hs0 : S2x1x1.Slices ![0, 0, 0] S1x1x1) (hs1 : S2x1x1.Slices ![1, 0, 0] S1x1x1) (hc : S1x1x1.ShapeCasts S1x1)
  (hr0 : S2x1x1024.Slices ![0, 0, 0] S1x1x1024) (hr1 : S2x1x1024.Slices ![1, 0, 0] S1x1x1024) (hcr : S1x1x1024.ShapeCasts S1x1024)

/-- The common maximum as the program computes it. -/
def tMax : S1x1.Idx → EReal := maximumf (F := Ideal) (φ := .f32) (pk0 X1 hs0 hc) (pk1 X1 hs1 hc)
/-- The two rescaling factors. -/
def tC0 : S1x1.Idx → EReal := Host.exp (F := Ideal) (φ := .f32) (subf (φ := .f32) (pk0 X1 hs0 hc) (tMax X1 hs0 hs1 hc))
def tC1 : S1x1.Idx → EReal := Host.exp (F := Ideal) (φ := .f32) (subf (φ := .f32) (pk1 X1 hs1 hc) (tMax X1 hs0 hs1 hc))
/-- The merged normaliser. -/
def tL : S1x1.Idx → EReal :=
  addf (F := Ideal) (φ := .f32) (mulf (φ := .f32) (pk0 X2 hs0 hc) (tC0 X1 hs0 hs1 hc)) (mulf (φ := .f32) (pk1 X2 hs1 hc) (tC1 X1 hs0 hs1 hc))

theorem tMax_eq : tMax X1 hs0 hs1 hc = fun _ => Attn.mrgMax X1 := by
  unfold tMax; rw [pk0_eq, pk1_eq]; rfl
theorem tC0_eq : tC0 X1 hs0 hs1 hc = fun _ => Attn.mrgC X1 0 := by
  unfold tC0; rw [tMax_eq, pk0_eq]; rfl
theorem tC1_eq : tC1 X1 hs0 hs1 hc = fun _ => Attn.mrgC X1 1 := by
  unfold tC1; rw [tMax_eq, pk1_eq]; rfl
theorem tL_eq : tL X1 X2 hs0 hs1 hc = fun _ => Attn.mrgL X1 X2 := by
  unfold tL; rw [tC0_eq, tC1_eq, pk0_eq, pk1_eq]; rfl

/-- The weights: exp (score - common maximum) / merged normaliser. -/
theorem tailW_eq :
    Host.divf (F := Ideal) (φ := .f32) (Host.exp (φ := .f32) (subf (φ := .f32) X0 (broadcastInDim S1x32768 ![0, 1] hbS (tMax X1 hs0 hs1 hc))))
        (broadcastInDim S1x32768 ![0, 1] hbS (tL X1 X2 hs0 hs1 hc))
      = fun i => Attn.tailWeight X0 X1 X2 (i 1) := by
  rw [tMax_eq, tL_eq, bcastS, bcastS]
  funext i
  obtain ⟨t, rfl⟩ : ∃ t, i = ix2 0 t := ⟨i 1, row_ix i⟩
  rfl

/-- The output: (sum₀ * c₀ + sum₁ * c₁) / merged normaliser. -/
theorem tailO_eq :
    Host.divf (F := Ideal) (φ := .f32)
        (addf (φ := .f32) (mulf (φ := .f32) (rw0 X3 hr0 hcr) (broadcastInDim S1x1024 ![0, 1] hbH (tC0 X1 hs0 hs1 hc)))
          (mulf (φ := .f32) (rw1 X3 hr1 hcr) (broadcastInDim S1x1024 ![0, 1] hbH (tC1 X1 hs0 hs1 hc))))
        (broadcastInDim S1x1024 ![0, 1] hbH (tL X1 X2 hs0 hs1 hc))
      = fun i => Attn.tailOut X1 X2 X3 (i 1) := by
  rw [tC0_eq, tC1_eq, tL_eq, bcastH, bcastH, bcastH, rw0_eq, rw1_eq]
  rfl

end Tail

/-! ## The operations before the region -/

section Prefix
open Facts₀

/-- The memory with its unit axis dropped reads the same row and column. -/
theorem reshape_eq (E : S32768x1x1024.Idx → EReal) (h : S32768x1x1024.ShapeCasts S32768x1024) (i : S32768x1024.Idx) :
    shapeCast S32768x1024 E h i = E (ix3 (i 0) 0 (i 1)) :=
  shapeCast_apply E h i (ix3 (i 0) 0 (i 1)) (by
    rw [Shape.rowMajor_val_three, Shape.rowMajor_val_two]
    show ((i 0).val * 1 + 0) * 1024 + (i 1).val = (i 0).val * 1024 + (i 1).val
    omega)

/-- The second half of the weight row. -/
theorem sliceEnc_eq (Wt : S1x2048.Idx → EReal) (h : S1x2048.Slices ![0, 1024] S1x1024) (i : S1x1024.Idx) :
    extractStridedSlice S1x1024 ![0, 1024] Wt h i = Wt (ix2 0 (Attn.wEnc (i 1))) :=
  extractStridedSlice_apply _ Wt h i _ fun a => match a with
    | ⟨0, _⟩ => by
        have h0 := (i 0).isLt
        change (i 0).val < 1 at h0
        show (0 : Nat) = 0 + (i 0).val
        omega
    | ⟨1, _⟩ => rfl

/-- The first half of the weight row. -/
theorem sliceDec_eq (Wt : S1x2048.Idx → EReal) (h : S1x2048.Slices ![0, 0] S1x1024) (u : Fin 1) (k : Fin 1024) :
    extractStridedSlice S1x1024 ![0, 0] Wt h (ix2 u k) = Wt (ix2 0 (Attn.wDec k)) :=
  extractStridedSlice_apply _ Wt h _ _ fun a => match a with
    | ⟨0, _⟩ => by
        have h0 := u.isLt
        show (0 : Nat) = 0 + u.val
        omega
    | ⟨1, _⟩ => by
        show k.val = 0 + k.val
        omega

abbrev DD : DotDims S1x1024 S1024x1 S1x1 := dot_S1x1024_S1024x1_S1x1_1_0_0_1_n_n

/-- The one contracted axis, by its coordinate. -/
def cE : DD.contr.Idx ≃ Fin 1024 := contrEquiv1 DD 1024 rfl rfl

theorem lhsIdx_eq (j : S1x1.Idx) (k : Fin 1024) : DD.lhsIdx j (cE.symm k) = ix2 0 k := by
  funext a
  match a with
  | ⟨0, _⟩ => exact Subsingleton.elim (α := Fin 1) _ _
  | ⟨1, _⟩ =>
    exact Fin.ext ((DD.lhsIdx_val_of_single (cl := (1 : Fin 2)) rfl j (cE.symm k)).trans
      (contrEquiv1_symm_val DD 1024 rfl rfl k))

theorem rhsIdx_eq (j : S1x1.Idx) (k : Fin 1024) : DD.rhsIdx j (cE.symm k) = ix2 k 0 := by
  funext a
  match a with
  | ⟨0, _⟩ =>
    exact Fin.ext ((DD.rhsIdx_val_of_single (cr := (0 : Fin 2)) rfl j (cE.symm k)).trans
      (contrEquiv1_symm_val DD 1024 rfl rfl k))
  | ⟨1, _⟩ => exact Subsingleton.elim (α := Fin 1) _ _

/-- The decoder's contribution to every score: the product of the state with the transposed first half of the weight
    row, plus the bias. -/
theorem dec_eq (d : S1x1024.Idx → EReal) (Wt : S1x2048.Idx → EReal) (b : S1.Idx → EReal)
    (hs : S1x2048.Slices ![0, 0] S1x1024) (ht : S1x1024.Transposes [1, 0] S1024x1)
    (hb : S1.BroadcastsInDim S1x1 (![1] : Fin 1 → Fin S1x1.rank)) :
    addf (F := Ideal) (φ := .f32)
        (Host.dotGeneral (φ₁ := .f32) (φ₂ := .f32) DD none d (transpose S1024x1 [1, 0] (extractStridedSlice S1x1024 ![0, 0] Wt hs) ht))
        (broadcastInDim S1x1 ![1] hb b)
      = fun _ => Attn.decBias d Wt b := by
  funext j
  have bc : broadcastInDim S1x1 ![1] hb b j = b (ix1 0) :=
    broadcastInDim_apply _ hb b j _ fun a => match a with
      | ⟨0, _⟩ => rfl
  refine (congrArg₂ (fun x y : EReal => x + y) (Ideal.dotGeneral_apply DD none _ d _ j) bc).trans ?_
  show (∑ k : DD.contr.Idx, _) + b (ix1 0) = (∑ k : Fin 1024, d (ix2 0 k) * Wt (ix2 0 (Attn.wDec k))) + b (ix1 0)
  rw [← Equiv.sum_comp cE.symm]
  congr 1
  refine Finset.sum_congr rfl fun k _ => ?_
  rw [lhsIdx_eq, rhsIdx_eq, transpose_ix2_apply, sliceDec_eq]

end Prefix

/-- The memory as the region finds it: the unit axis dropped. -/
theorem P0 (c : Dev nD) :
    (V m c main_v0 : S32768x1024.Idx → EReal)
      = fun i => m ((c.tc : Thread nD τ).loc main_arg1) (ix3 (i 0) 0 (i 1)) := by
  show StableHlo.after hostOps0 (fun b => m (c, b)) (Proc.devRef .tc main_v0) = _
  after_results
  exact funext fun i => reshape_eq _ _ i

/-- The weight row's second half as the region finds it. -/
theorem P2 (c : Dev nD) :
    (V m c main_v2 : S1x1024.Idx → EReal)
      = fun i => m ((c.tc : Thread nD τ).loc main_arg2) (ix2 0 (Attn.wEnc (i 1))) := by
  show StableHlo.after hostOps0 (fun b => m (c, b)) (Proc.devRef .tc main_v2) = _
  after_results
  exact funext fun i => sliceEnc_eq _ _ i

/-- The decoder's contribution to every score as the region finds it. -/
theorem P6 (c : Dev nD) :
    (V m c main_v6 : S1x1.Idx → EReal)
      = fun _ => Attn.decBias (m ((c.tc : Thread nD τ).loc main_arg0)) (m ((c.tc : Thread nD τ).loc main_arg2))
          (m ((c.tc : Thread nD τ).loc main_arg3)) := by
  show StableHlo.after hostOps0 (fun b => m (c, b)) (Proc.devRef .tc main_v6) = _
  after_results
  exact dec_eq _ _ _ _ _ _

/-! ## The region's final output arrays -/

/-- The scores the region leaves (1 × 32768). -/
abbrev A3 (c : Dev nD) : Attn.SS.Idx → EReal := (dats m 0 c).arrAt 3 cfg0.N
/-- The two halves' maxima (2 × 1 × 1). -/
abbrev A4 (c : Dev nD) : Attn.SM.Idx → EReal := (dats m 0 c).arrAt 4 cfg0.N
/-- The two halves' normalisers (2 × 1 × 1). -/
abbrev A5 (c : Dev nD) : Attn.SM.Idx → EReal := (dats m 0 c).arrAt 5 cfg0.N
/-- The two halves' weighted sums (2 × 1 × 1024). -/
abbrev A6 (c : Dev nD) : Attn.SA.Idx → EReal := (dats m 0 c).arrAt 6 cfg0.N

/-- What the operations after the region start from: the region's arrays at their final contents. -/
abbrev W (c : Dev nD) : Valuation τ sig (Elt Ideal) :=
  Pipeline.withArrays (cfgs 0).spec c (V0 m c) (fun w => (dats m 0 c).arrAt w (cfgs 0).N)

theorem W3 (c : Dev nD) : Pipeline.withArrays (cfgs 0).spec c (V0 m c) (fun w => (dats m 0 c).arrAt w (cfgs 0).N) (Proc.devRef .tc main_v7_0) = A3 m c :=
  Pipeline.withArrays_arr spec0 launch0.win.arr_inj c _ _ 3
theorem W4 (c : Dev nD) : Pipeline.withArrays (cfgs 0).spec c (V0 m c) (fun w => (dats m 0 c).arrAt w (cfgs 0).N) (Proc.devRef .tc main_v7_1) = A4 m c :=
  Pipeline.withArrays_arr spec0 launch0.win.arr_inj c _ _ 4
theorem W5 (c : Dev nD) : Pipeline.withArrays (cfgs 0).spec c (V0 m c) (fun w => (dats m 0 c).arrAt w (cfgs 0).N) (Proc.devRef .tc main_v7_2) = A5 m c :=
  Pipeline.withArrays_arr spec0 launch0.win.arr_inj c _ _ 5
theorem W6 (c : Dev nD) : Pipeline.withArrays (cfgs 0).spec c (V0 m c) (fun w => (dats m 0 c).arrAt w (cfgs 0).N) (Proc.devRef .tc main_v7_3) = A6 m c :=
  Pipeline.withArrays_arr spec0 launch0.win.arr_inj c _ _ 6

/-! ## The operations after the region -/

/-- The weights the program returns: the stored scores against the merged maximum and normaliser. -/
theorem T37 (c : Dev nD) :
    Pipeline.afterTail₀ cfgs (dats m) 0 (V0 m) [hostOps1] c main_v37
      = fun i => Attn.tailWeight (A3 m c) (A4 m c) (A5 m c) (i 1) := by
  unfold Pipeline.afterTail₀
  show StableHlo.after hostOps1 _ (Proc.devRef .tc main_v37) = _
  after_results_simp
  rw [W3, W4, W5]
  exact tailW_eq (A3 m c) (A4 m c) (A5 m c) _ _ _ _

/-- The output the program returns: the two halves' weighted sums rescaled, added and normalised. -/
theorem T39 (c : Dev nD) :
    Pipeline.afterTail₀ cfgs (dats m) 0 (V0 m) [hostOps1] c main_v39
      = fun i => Attn.tailOut (A4 m c) (A5 m c) (A6 m c) (i 1) := by
  unfold Pipeline.afterTail₀
  show StableHlo.after hostOps1 _ (Proc.devRef .tc main_v39) = _
  after_results_simp
  rw [W4, W5, W6]
  exact tailO_eq (A4 m c) (A5 m c) (A6 m c) _ _ _ _ _ _ _

/-- Every weakly fair execution of the program terminates with the output and the weights at the merged reading of
    the region's final arrays, and with the four arguments as launched. -/
theorem run_tail : θ_run defs (onTc (τ := τ) (main (F := Ideal))) ⟨m, fun _ => 0, ρ⟩ (fun r => ∀ c : Dev nD,
      r.2.mem ((c.tc : Thread nD τ).loc main_v39) = (fun i => Attn.tailOut (A4 m c) (A5 m c) (A6 m c) (i 1))
      ∧ r.2.mem ((c.tc : Thread nD τ).loc main_v37) = (fun i => Attn.tailWeight (A3 m c) (A4 m c) (A5 m c) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v39 (Pipeline.mem_restRefs_of main_v39 (by decide) (by decide))).trans (T39 m c),
     ((h c).2 main_v37 (Pipeline.mem_restRefs_of main_v37 (by decide) (by decide))).trans (T37 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

end Cert.KernelIdeal.KHost
end
-- ==== Proof.KPieces.lean ====
/-
  What one grid point leaves behind, as values.

  A grid point of the kernel reads a tile of 2048 encoder rows, the encoder half of the weight row and the decoder
  bias, and the three carried quantities (the running maximum, the running normaliser, the running weighted sum).
  It leaves the tile's 2048 scores in its output block and the three updated quantities in the carried buffers;
  at a core's first point the carried quantities are first reset (to -inf, 0, 0), and at a core's last point the
  updated quantities are also copied to that core's row of the three small outputs. Each lemma below says that one
  of these buffers ends holding the corresponding pure function of what was read.
-/
import proofs.«170956_j42322607735440_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KPieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords)
  (arg2 : Memref sig .tc .vmem S2048x1024 .f32) (harg2 : arg2.IsWhole) (arg3 : Memref sig .tc .vmem S1x1024 .f32) (harg3 : arg3.IsWhole)
  (arg4 : Memref sig .tc .vmem S1x1 .f32) (harg4 : arg4.IsWhole) (arg5 : Memref sig .tc .vmem S1x2048 .f32) (harg5 : arg5.IsWhole)
  (arg6 : Memref sig .tc .vmem S1x1x1 .f32) (harg6 : arg6.IsWhole) (arg7 : Memref sig .tc .vmem S1x1x1 .f32) (harg7 : arg7.IsWhole)
  (arg8 : Memref sig .tc .vmem S1x1x1024 .f32) (harg8 : arg8.IsWhole) (arg9 : Memref sig .tc .vmem S1x1 .f32) (harg9 : arg9.IsWhole)
  (arg10 : Memref sig .tc .vmem S1x1 .f32) (harg10 : arg10.IsWhole) (arg11 : Memref sig .tc .vmem S1x1024 .f32) (harg11 : arg11.IsWhole)
  (x0 : Vec F S2048x1024 .f32) (x1 : Vec F S1x1024 .f32) (x2 : Vec F S1x1 .f32)
  (xs0 : Vec F S1x1 .f32) (xs1 : Vec F S1x1 .f32) (xs2 : Vec F S1x1024 .f32)

theorem scores_A (hc0 : cond0_0 i) (hc1 : ¬cond0_1 i) :
    out0_A_3 c i arg2 harg2 arg3 harg3 arg4 harg4 arg5 harg5 arg6 harg6 arg7 harg7 arg8 harg8 arg9 harg9 arg10 harg10 arg11 harg11 hc0 hc1 x0 x1 x2 = k0_pay10 x0 x1 x2 := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  first
    | rw [View.canon_unit_zero hz2]
    | rw [View.canon_cons_unit_zero (S := S1x2048) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem max_A (hc0 : cond0_0 i) (hc1 : ¬cond0_1 i) :
    sout0_A_0 c i arg2 harg2 arg3 harg3 arg4 harg4 arg5 harg5 arg6 harg6 arg7 harg7 arg8 harg8 arg9 harg9 arg10 harg10 arg11 harg11 hc0 hc1 x0 x1 x2 = k0_pay2 (k0_pay11 x0 x1 x2 (k0_pay6 (F := F))) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem norm_A (hc0 : cond0_0 i) (hc1 : ¬cond0_1 i) :
    sout0_A_1 c i arg2 harg2 arg3 harg3 arg4 harg4 arg5 harg5 arg6 harg6 arg7 harg7 arg8 harg8 arg9 harg9 arg10 harg10 arg11 harg11 hc0 hc1 x0 x1 x2 = k0_pay14 x0 x1 x2 (k0_pay6 (F := F)) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem acc_A (hc0 : cond0_0 i) (hc1 : ¬cond0_1 i) :
    sout0_A_2 c i arg2 harg2 arg3 harg3 arg4 harg4 arg5 harg5 arg6 harg6 arg7 harg7 arg8 harg8 arg9 harg9 arg10 harg10 arg11 harg11 hc0 hc1 x0 x1 x2 = k0_pay1 (k0_pay15 x0 x1 x2 (k0_pay6 (F := F))) (k0_pay16 x0 x1 x2 (k0_pay6 (F := F)) (k0_pay8 (F := F))) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2)]
  unfold kernelRun0_A
  dsimp only
  sl_unfold_words
  first
    | rw [View.canon_unit_zero hz2]
    | rw [View.canon_cons_unit_zero (S := S1x1024) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem scores_B (hc0 : ¬cond0_0 i) (hc1 : ¬cond0_1 i) :
    out0_B_3 c i arg2 harg2 arg3 harg3 arg4 harg4 arg5 harg5 arg6 harg6 arg7 harg7 arg8 harg8 arg9 harg9 arg10 harg10 arg11 harg11 hc0 hc1 x0 x1 x2 xs0 xs1 xs2 = k0_pay10 x0 x1 x2 := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  first
    | rw [View.canon_unit_zero hz2]
    | rw [View.canon_cons_unit_zero (S := S1x2048) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem max_B (hc0 : ¬cond0_0 i) (hc1 : ¬cond0_1 i) :
    sout0_B_0 c i arg2 harg2 arg3 harg3 arg4 harg4 arg5 harg5 arg6 harg6 arg7 harg7 arg8 harg8 arg9 harg9 arg10 harg10 arg11 harg11 hc0 hc1 x0 x1 x2 xs0 xs1 xs2 = k0_pay2 (k0_pay11 x0 x1 x2 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem norm_B (hc0 : ¬cond0_0 i) (hc1 : ¬cond0_1 i) :
    sout0_B_1 c i arg2 harg2 arg3 harg3 arg4 harg4 arg5 harg5 arg6 harg6 arg7 harg7 arg8 harg8 arg9 harg9 arg10 harg10 arg11 harg11 hc0 hc1 x0 x1 x2 xs0 xs1 xs2 = k0_pay14 x0 x1 x2 xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem acc_B (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 hc0 hc1 x0 x1 x2 xs0 xs1 xs2 = k0_pay1 (k0_pay15 x0 x1 x2 xs0) (k0_pay16 x0 x1 x2 xs0 xs2) := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_B
  dsimp only
  sl_unfold_words
  first
    | rw [View.canon_unit_zero hz2]
    | rw [View.canon_cons_unit_zero (S := S1x1024) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem scores_C (hc0 : ¬cond0_0 i) (hc1 : cond0_1 i) :
    out0_C_3 c i arg2 harg2 arg3 harg3 arg4 harg4 arg5 harg5 arg6 harg6 arg7 harg7 arg8 harg8 arg9 harg9 arg10 harg10 arg11 harg11 hc0 hc1 x0 x1 x2 xs0 xs1 xs2 = k0_pay10 x0 x1 x2 := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz2]
    | rw [View.canon_cons_unit_zero (S := S1x2048) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem max_C (hc0 : ¬cond0_0 i) (hc1 : cond0_1 i) :
    sout0_C_0 c i arg2 harg2 arg3 harg3 arg4 harg4 arg5 harg5 arg6 harg6 arg7 harg7 arg8 harg8 arg9 harg9 arg10 harg10 arg11 harg11 hc0 hc1 x0 x1 x2 xs0 xs1 xs2 = k0_pay2 (k0_pay11 x0 x1 x2 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem norm_C (hc0 : ¬cond0_0 i) (hc1 : cond0_1 i) :
    sout0_C_1 c i arg2 harg2 arg3 harg3 arg4 harg4 arg5 harg5 arg6 harg6 arg7 harg7 arg8 harg8 arg9 harg9 arg10 harg10 arg11 harg11 hc0 hc1 x0 x1 x2 xs0 xs1 xs2 = k0_pay14 x0 x1 x2 xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz2]
    | rw [View.canon_cons_unit_zero (S := S1x1) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem acc_C (hc0 : ¬cond0_0 i) (hc1 : cond0_1 i) :
    sout0_C_2 c i arg2 harg2 arg3 harg3 arg4 harg4 arg5 harg5 arg6 harg6 arg7 harg7 arg8 harg8 arg9 harg9 arg10 harg10 arg11 harg11 hc0 hc1 x0 x1 x2 xs0 xs1 xs2 = k0_pay1 (k0_pay15 x0 x1 x2 xs0) (k0_pay16 x0 x1 x2 xs0 xs2) := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz2]
    | rw [View.canon_cons_unit_zero (S := S1x1024) hz2]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem maxOut_C (hc0 : ¬cond0_0 i) (hc1 : cond0_1 i) :
    out0_C_4 c i arg2 harg2 arg3 harg3 arg4 harg4 arg5 harg5 arg6 harg6 arg7 harg7 arg8 harg8 arg9 harg9 arg10 harg10 arg11 harg11 hc0 hc1 x0 x1 x2 xs0 xs1 xs2 = k0_pay3 (k0_pay2 (k0_pay11 x0 x1 x2 xs0)) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz3]
    | rw [View.canon_cons_unit_zero (S := S1x1x1) hz3]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem normOut_C (hc0 : ¬cond0_0 i) (hc1 : cond0_1 i) :
    out0_C_5 c i arg2 harg2 arg3 harg3 arg4 harg4 arg5 harg5 arg6 harg6 arg7 harg7 arg8 harg8 arg9 harg9 arg10 harg10 arg11 harg11 hc0 hc1 x0 x1 x2 xs0 xs1 xs2 = k0_pay4 (k0_pay14 x0 x1 x2 xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz3]
    | rw [View.canon_cons_unit_zero (S := S1x1x1) hz3]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

theorem accOut_C (hc0 : ¬cond0_0 i) (hc1 : cond0_1 i) :
    out0_C_6 c i arg2 harg2 arg3 harg3 arg4 harg4 arg5 harg5 arg6 harg6 arg7 harg7 arg8 harg8 arg9 harg9 arg10 harg10 arg11 harg11 hc0 hc1 x0 x1 x2 xs0 xs1 xs2 = k0_pay5 (k0_pay1 (k0_pay15 x0 x1 x2 xs0) (k0_pay16 x0 x1 x2 xs0 xs2)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 hc0 hc1 x0 x1 x2 xs0 xs1 xs2)]
  unfold kernelRun0_C
  dsimp only
  sl_unfold_words
  first
    | rw [View.canon_unit_zero hz3]
    | rw [View.canon_cons_unit_zero (S := S1x1x1024) hz3]
  try simp only [View.readAt_eq_ld, harg2.read_unread, harg3.read_unread, harg4.read_unread, harg5.read_unread, harg6.read_unread, harg7.read_unread, harg8.read_unread, harg9.read_unread, harg10.read_unread, harg11.read_unread, View.ld_unit_zero (S := S2048x1024) hz2, View.ld_unit_zero (S := S1x1024) hz2, View.ld_unit_zero (S := S1x1) hz2, View.ld_unit_zero (S := S1x2048) hz2, View.ld_unit_zero (S := S1x1x1) hz3, View.ld_unit_zero (S := S1x1x1024) hz3, View.readCov_unit_zero (S := S1x1) _ hz2, View.readCov_unit_zero (S := S1x1024) _ hz2, View.readCov_unit_zero (S := S1x1x1) _ hz3, View.readCov_unit_zero (S := S1x1x1024) _ hz3]

end Cert.KernelIdeal.KPieces
end
-- ==== Proof.KPoints.lean ====
/-
  What the buffers hold after each grid point, as the point's arithmetic applied to the point's blocks and to what
  the point before left in the carried buffers. A half's first point (point 0 or 8) starts from the reset values;
  its last point (7 or 15) also fills the half's row of the three small outputs.
-/
import proofs.«170956_j42322607735440_2_alg».proof.Proof.KPieces

noncomputable section

open Idealize.ShloMosaic Idealize.ShloMosaic.TcCoe Idealize.SL.Sem

namespace Cert.KernelIdeal.KPoints

open Cert.KernelIdeal Cert.KernelIdeal.Gen Cert.KernelIdeal.KPieces

variable {F : FTy → Type} [FloatOps F]
variable (m : (ℓ : Loc nD τ sig) → Buf (Elt F) ℓ) (c : Dev nD)

theorem scores_at_A (t : Fin cfg0.N) (h0 : t.val % 8 = 0) (h1 : ¬t.val % 8 = 7) :
    (outsAt0 m c t.val t.isLt).1 = k0_pay10 (iblk m c 0 t) (iblk m c 1 t) (iblk m c 2 t) := by
  rw [outsAt0_A m c t h0 h1]
  dsimp only
  exact scores_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem max_at_A (t : Fin cfg0.N) (h0 : t.val % 8 = 0) (h1 : ¬t.val % 8 = 7) :
    (outsAt0 m c t.val t.isLt).2.2.2.2.1 = k0_pay2 (k0_pay11 (iblk m c 0 t) (iblk m c 1 t) (iblk m c 2 t) (k0_pay6 (F := F))) := by
  rw [outsAt0_A m c t h0 h1]
  dsimp only
  exact max_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem norm_at_A (t : Fin cfg0.N) (h0 : t.val % 8 = 0) (h1 : ¬t.val % 8 = 7) :
    (outsAt0 m c t.val t.isLt).2.2.2.2.2.1 = k0_pay14 (iblk m c 0 t) (iblk m c 1 t) (iblk m c 2 t) (k0_pay6 (F := F)) (k0_pay7 (F := F)) := by
  rw [outsAt0_A m c t h0 h1]
  dsimp only
  exact norm_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem acc_at_A (t : Fin cfg0.N) (h0 : t.val % 8 = 0) (h1 : ¬t.val % 8 = 7) :
    (outsAt0 m c t.val t.isLt).2.2.2.2.2.2 = k0_pay1 (k0_pay15 (iblk m c 0 t) (iblk m c 1 t) (iblk m c 2 t) (k0_pay6 (F := F))) (k0_pay16 (iblk m c 0 t) (iblk m c 1 t) (iblk m c 2 t) (k0_pay6 (F := F)) (k0_pay8 (F := F))) := by
  rw [outsAt0_A m c t h0 h1]
  dsimp only
  exact acc_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) ((hcond0_0 t).mpr h0) (fun h => h1 ((hcond0_1 t).mp h))

theorem scores_at_B (t : Fin cfg0.N) (h0 : ¬t.val % 8 = 0) (h1 : ¬t.val % 8 = 7) :
    (outsAt0 m c t.val t.isLt).1 = k0_pay10 (iblk m c 0 t) (iblk m c 1 t) (iblk m c 2 t) := by
  rw [outsAt0_B m c t h0 h1]
  dsimp only
  exact scores_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

theorem max_at_B (t : Fin cfg0.N) (h0 : ¬t.val % 8 = 0) (h1 : ¬t.val % 8 = 7) :
    (outsAt0 m c t.val t.isLt).2.2.2.2.1 = k0_pay2 (k0_pay11 (iblk m c 0 t) (iblk m c 1 t) (iblk m c 2 t) (outsAt0 m c (t.val - 1) (Nat.lt_of_le_of_lt (Nat.sub_le _ _) t.isLt)).2.2.2.2.1) := by
  rw [outsAt0_B m c t h0 h1]
  dsimp only
  exact max_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

theorem norm_at_B (t : Fin cfg0.N) (h0 : ¬t.val % 8 = 0) (h1 : ¬t.val % 8 = 7) :
    (outsAt0 m c t.val t.isLt).2.2.2.2.2.1 = k0_pay14 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_B m c t h0 h1]
  dsimp only
  exact norm_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

theorem acc_at_B (t : Fin cfg0.N) (h0 : ¬t.val % 8 = 0) (h1 : ¬t.val % 8 = 7) :
    (outsAt0 m c t.val t.isLt).2.2.2.2.2.2 = k0_pay1 (k0_pay15 (iblk m c 0 t) (iblk m c 1 t) (iblk m c 2 t) (outsAt0 m c (t.val - 1) (Nat.lt_of_le_of_lt (Nat.sub_le _ _) t.isLt)).2.2.2.2.1) (k0_pay16 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  rw [outsAt0_B m c t h0 h1]
  dsimp only
  exact acc_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) (fun h => h1 ((hcond0_1 t).mp h))

theorem scores_at_C (t : Fin cfg0.N) (h0 : ¬t.val % 8 = 0) (h1 : t.val % 8 = 7) :
    (outsAt0 m c t.val t.isLt).1 = k0_pay10 (iblk m c 0 t) (iblk m c 1 t) (iblk m c 2 t) := by
  rw [outsAt0_C m c t h0 h1]
  dsimp only
  exact scores_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem max_at_C (t : Fin cfg0.N) (h0 : ¬t.val % 8 = 0) (h1 : t.val % 8 = 7) :
    (outsAt0 m c t.val t.isLt).2.2.2.2.1 = k0_pay2 (k0_pay11 (iblk m c 0 t) (iblk m c 1 t) (iblk m c 2 t) (outsAt0 m c (t.val - 1) (Nat.lt_of_le_of_lt (Nat.sub_le _ _) t.isLt)).2.2.2.2.1) := by
  rw [outsAt0_C m c t h0 h1]
  dsimp only
  exact max_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem norm_at_C (t : Fin cfg0.N) (h0 : ¬t.val % 8 = 0) (h1 : t.val % 8 = 7) :
    (outsAt0 m c t.val t.isLt).2.2.2.2.2.1 = k0_pay14 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 := by
  rw [outsAt0_C m c t h0 h1]
  dsimp only
  exact norm_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem acc_at_C (t : Fin cfg0.N) (h0 : ¬t.val % 8 = 0) (h1 : t.val % 8 = 7) :
    (outsAt0 m c t.val t.isLt).2.2.2.2.2.2 = k0_pay1 (k0_pay15 (iblk m c 0 t) (iblk m c 1 t) (iblk m c 2 t) (outsAt0 m c (t.val - 1) (Nat.lt_of_le_of_lt (Nat.sub_le _ _) t.isLt)).2.2.2.2.1) (k0_pay16 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2) := by
  rw [outsAt0_C m c t h0 h1]
  dsimp only
  exact acc_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem maxOut_at_C (t : Fin cfg0.N) (h0 : ¬t.val % 8 = 0) (h1 : t.val % 8 = 7) :
    (outsAt0 m c t.val t.isLt).2.1 = k0_pay3 (k0_pay2 (k0_pay11 (iblk m c 0 t) (iblk m c 1 t) (iblk m c 2 t) (outsAt0 m c (t.val - 1) (Nat.lt_of_le_of_lt (Nat.sub_le _ _) t.isLt)).2.2.2.2.1)) := by
  rw [outsAt0_C m c t h0 h1]
  dsimp only
  exact maxOut_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem normOut_at_C (t : Fin cfg0.N) (h0 : ¬t.val % 8 = 0) (h1 : t.val % 8 = 7) :
    (outsAt0 m c t.val t.isLt).2.2.1 = k0_pay4 (k0_pay14 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1) := by
  rw [outsAt0_C m c t h0 h1]
  dsimp only
  exact normOut_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

theorem accOut_at_C (t : Fin cfg0.N) (h0 : ¬t.val % 8 = 0) (h1 : t.val % 8 = 7) :
    (outsAt0 m c t.val t.isLt).2.2.2.1 = k0_pay5 (k0_pay1 (k0_pay15 (iblk m c 0 t) (iblk m c 1 t) (iblk m c 2 t) (outsAt0 m c (t.val - 1) (Nat.lt_of_le_of_lt (Nat.sub_le _ _) t.isLt)).2.2.2.2.1) (k0_pay16 (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2)) := by
  rw [outsAt0_C m c t h0 h1]
  dsimp only
  exact accOut_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (fun h => h0 ((hcond0_0 t).mp h)) ((hcond0_1 t).mpr h1)

end Cert.KernelIdeal.KPoints
end
-- ==== Proof.LibDot.lean ====
/-
  A general lemma: a matrix product's contraction read as a sum over `Fin K`.

  For dimension numbers `d` of a plain product `[M, K] × [K, N] → [M, N]` — one contracted axis of extent `K`, and the
  four coordinate facts that say the left operand is read at (row of the output, contraction position) and the right
  operand at (contraction position, column of the output) — the sum over `d`'s own contraction index of the products
  of the operands is the sum over `k : Fin K` of `l (p, k) · r (k, j)`. The sum is re-indexed through the bijection
  between a one-axis contraction index and its coordinate.
-/
import Idealize.ShloMosaic.PureOps.Ideal.Laws
import Idealize.ShloMosaic.Lib.ValueIdx

noncomputable section

open scoped BigOperators

namespace Cert.LibDot

open Idealize.ShloMosaic Idealize.ShloMosaic.ValueIdx

/-- The contraction of a plain `[M, K] × [K, N]` product at output `(p, j)` is `∑ k : Fin K, l (p, k) · r (k, j)`, given
    that the dimension numbers contract one axis of extent `K` (`hr`, `hs`) and read the operands' coordinates from the
    output's row, the contraction position and the output's column (`hl0`, `hl1`, `hr0`, `hr1`). -/
theorem plain_sum {M K N : Nat} (d : DotDims ⟨2, ![M, K]⟩ ⟨2, ![K, N]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q (0 : Fin 2)).val = (i (0 : Fin 2)).val)
    (hl1 : ∀ (i : (⟨2, ![M, N]⟩ : Shape).Idx) (q : d.contr.Idx), (d.lhsIdx i q (1 : Fin 2)).val = (q ⟨0, by omega⟩).val)
    (hr0 : ∀ (i : (⟨2, ![M, N]⟩ : Shape).Idx) (q : d.contr.Idx), (d.rhsIdx i q (0 : Fin 2)).val = (q ⟨0, by omega⟩).val)
    (hr1 : ∀ (i : (⟨2, ![M, N]⟩ : Shape).Idx) (q : d.contr.Idx), (d.rhsIdx i q (1 : Fin 2)).val = (i (1 : Fin 2)).val)
    (l : (⟨2, ![M, K]⟩ : Shape).Idx → EReal) (r : (⟨2, ![K, N]⟩ : Shape).Idx → EReal) (p : Fin M) (j : Fin N) :
    ∑ k : d.contr.Idx, l (d.lhsIdx (ix2 p j) k) * r (d.rhsIdx (ix2 p j) k) = ∑ k : Fin K, l (ix2 p k) * r (ix2 k j) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 k j := funext fun a => Fin.ext (by
    match a with
    | ⟨0, _⟩ => exact (hr0 _ _).trans hk
    | ⟨1, _⟩ => exact hr1 _ _)
  rw [el, er]

end Cert.LibDot

end
-- ==== Proof.LibKeepdims.lean ====
/-
  Two layout operations read at an index, for a column kept as a unit axis (what `sum(…, keepdims=True)` produces):
  an `[a]` array viewed as an `[a, 1]` column, and an `[a, 1]` column repeated along `b` columns. Both are general
  in the extents.
-/
import Idealize.ShloMosaic.Lib.ValueLayout
import Idealize.ShloMosaic.Lib.Pipeline.Value

namespace Idealize.ShloMosaic.ValueIdx

variable {α : Type}

/-- An `[a]` array cast to `[a, 1]` reads, at `(i, u)`, the operand at `i`, whatever the unit coordinate `u`:
    the row-major position of `(i, u)` in `[a, 1]` is `i * 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KPayload.lean ====
/-
  The arithmetic of one grid point, read entry by entry over the extended reals.

  With `x0` a tile of 2048 encoder rows, `x1` the encoder half of the weight row, `x2` the decoder bias and
  `mo`, `lo`, `ao` the carried maximum, normaliser and weighted sum, one grid point computes
    score r   = Σ_k x1 k · x0 (r, k) + x2,
    m'        = max mo (max_r score r),
    corr      = exp (mo - m'),
    p r       = exp (score r - m'),
    l'        = corr · lo + Σ_r p r,
    a' h      = corr · ao h + Σ_r p r · x0 (r, h).
  Changes of float format are the identity here, a matrix product into a zero accumulator is its sum of products,
  and a lane reduction is the fold of its operation over the lane.
-/
import proofs.«170956_j42322607735440_2_alg».proof.Proof.Gen.KernelIdeal.Skeleton
import proofs.«170956_j42322607735440_2_alg».proof.Proof.LibDot
import proofs.«170956_j42322607735440_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KPayload

open Cert.KernelIdeal Cert.KernelIdeal.Gen Idealize.ShloMosaic Idealize.ShloMosaic.ValueIdx

/-- The word of -inf denotes the bottom of the extended reals. -/
theorem ofBits_neg_inf : Ideal.ofBits .f32 0xFF800000#32 = (⊥ : EReal) := by simp [Ideal.ofBits, Ideal.ieee]

/-- A product against a transposed right operand, `[M, K] × [N, K] → [M, N]`: the contraction at `(p, j)` is
    `Σ_k l (p, k) · r (j, k)`. -/
theorem transposed_sum {M K N : Nat} (d : DotDims ⟨2, ![M, K]⟩ ⟨2, ![N, K]⟩ ⟨2, ![M, N]⟩)
    (hr : d.contr.rank = 1) (hs : d.contr.size ⟨0, by omega⟩ = K)
    (hl0 : ∀ (i : (⟨2, ![M, N]⟩ : Shape).Idx) (q : d.contr.Idx), (d.lhsIdx i q (0 : Fin 2)).val = (i (0 : Fin 2)).val)
    (hl1 : ∀ (i : (⟨2, ![M, N]⟩ : Shape).Idx) (q : d.contr.Idx), (d.lhsIdx i q (1 : Fin 2)).val = (q ⟨0, by omega⟩).val)
    (hr0 : ∀ (i : (⟨2, ![M, N]⟩ : Shape).Idx) (q : d.contr.Idx), (d.rhsIdx i q (0 : Fin 2)).val = (i (1 : Fin 2)).val)
    (hr1 : ∀ (i : (⟨2, ![M, N]⟩ : Shape).Idx) (q : d.contr.Idx), (d.rhsIdx i q (1 : Fin 2)).val = (q ⟨0, by omega⟩).val)
    (l : (⟨2, ![M, K]⟩ : Shape).Idx → EReal) (r : (⟨2, ![N, K]⟩ : Shape).Idx → EReal) (p : Fin M) (j : Fin N) :
    ∑ k : d.contr.Idx, l (d.lhsIdx (ix2 p j) k) * r (d.rhsIdx (ix2 p j) k) = ∑ k : Fin K, l (ix2 p k) * r (ix2 j k) := by
  rw [← Equiv.sum_comp (contrEquiv1 d K hr hs).symm]
  refine Finset.sum_congr rfl fun k _ => ?_
  have hk := contrEquiv1_symm_val d K hr hs k
  have el : d.lhsIdx (ix2 p j) ((contrEquiv1 d K hr hs).symm k) = ix2 p k := funext fun a => Fin.ext (by
    match a with
    | ⟨0, _⟩ => exact hl0 _ _
    | ⟨1, _⟩ => exact (hl1 _ _).trans hk)
  have er : d.rhsIdx (ix2 p j) ((contrEquiv1 d K hr hs).symm k) = ix2 j k := funext fun a => Fin.ext (by
    match a with
    | ⟨0, _⟩ => exact hr0 _ _
    | ⟨1, _⟩ => exact (hr1 _ _).trans hk)
  rw [el, er]

local notation "dScore" => dot_S1x1024_S2048x1024_S1x2048_1_1_0_0_n_n
local notation "dAcc" => dot_S1x2048_S2048x1024_S1x1024_1_0_0_1_n_n

theorem dScore_l0 (i : S1x2048.Idx) (q : (dScore).contr.Idx) : ((dScore).lhsIdx i q 0).val = (i 0).val := by
  unfold DotDims.lhsIdx
  rw [dif_neg (show ¬(0 : Fin S1x1024.rank) ∈ (dScore).lhsBatch by decide), dif_pos (show (0 : Fin S1x1024.rank) ∈ (dScore).lhsNonContracting by decide)]
  rfl
theorem dScore_l1 (i : S1x2048.Idx) (q : (dScore).contr.Idx) : ((dScore).lhsIdx i q 1).val = (q ⟨0, by decide⟩).val :=
  (dScore).lhsIdx_val_of_single rfl i q
theorem dScore_r0 (i : S1x2048.Idx) (q : (dScore).contr.Idx) : ((dScore).rhsIdx i q 0).val = (i 1).val := by
  unfold DotDims.rhsIdx
  rw [dif_neg (show ¬(0 : Fin S2048x1024.rank) ∈ (dScore).rhsBatch by decide), dif_pos (show (0 : Fin S2048x1024.rank) ∈ (dScore).rhsNonContracting by decide)]
  rfl
theorem dScore_r1 (i : S1x2048.Idx) (q : (dScore).contr.Idx) : ((dScore).rhsIdx i q 1).val = (q ⟨0, by decide⟩).val :=
  (dScore).rhsIdx_val_of_single rfl i q

theorem dAcc_l0 (i : S1x1024.Idx) (q : (dAcc).contr.Idx) : ((dAcc).lhsIdx i q 0).val = (i 0).val := by
  unfold DotDims.lhsIdx
  rw [dif_neg (show ¬(0 : Fin S1x2048.rank) ∈ (dAcc).lhsBatch by decide), dif_pos (show (0 : Fin S1x2048.rank) ∈ (dAcc).lhsNonContracting by decide)]
  rfl
theorem dAcc_l1 (i : S1x1024.Idx) (q : (dAcc).contr.Idx) : ((dAcc).lhsIdx i q 1).val = (q ⟨0, by decide⟩).val :=
  (dAcc).lhsIdx_val_of_single rfl i q
theorem dAcc_r0 (i : S1x1024.Idx) (q : (dAcc).contr.Idx) : ((dAcc).rhsIdx i q 0).val = (q ⟨0, by decide⟩).val :=
  (dAcc).rhsIdx_val_of_single rfl i q
theorem dAcc_r1 (i : S1x1024.Idx) (q : (dAcc).contr.Idx) : ((dAcc).rhsIdx i q 1).val = (i 1).val := by
  unfold DotDims.rhsIdx
  rw [dif_neg (show ¬(1 : Fin S2048x1024.rank) ∈ (dAcc).rhsBatch by decide), dif_pos (show (1 : Fin S2048x1024.rank) ∈ (dAcc).rhsNonContracting by decide)]
  rfl

variable (x0 : Vec Ideal S2048x1024 .f32) (x1 : Vec Ideal S1x1024 .f32) (x2 : Vec Ideal S1x1 .f32)
  (mo lo : Vec Ideal S1x1 .f32) (ao : Vec Ideal S1x1024 .f32)

/-- The score of row `r` of the tile. -/
theorem scores_apply (r : Fin 2048) :
    k0_pay10 x0 x1 x2 (ix2 0 r) = (∑ k : Fin 1024, x1 (ix2 0 k) * x0 (ix2 r k)) + x2 (ix2 0 0) := by
  unfold k0_pay10 k0_pay9
  refine congrArg₂ (· + ·) ?_ ?_
  · refine (Ideal.matmul_constant_zero_apply dScore none _ _ _).trans ?_
    refine (transposed_sum dScore rfl rfl dScore_l0 dScore_l1 dScore_r0 dScore_r1 _ _ 0 r).trans ?_
    refine Finset.sum_congr rfl fun k _ => ?_
    simp only [truncf_apply, shapeCast_self]
  · refine (broadcastTo_a1_ab_apply _ _ 0 r).trans ?_
    rw [shapeCast_self]

/-- The lane reduction's index at lane `k` is entry `(0, k)`. -/
theorem lift_eq (k : Fin 2048) : reduces_S1x2048_S1.lift (ix1 0) k = ix2 0 k :=
  funext fun a => Fin.ext (by match a with | ⟨0, _⟩ => rfl | ⟨1, _⟩ => rfl)

/-- The new running maximum: the carried one against the tile's largest score. -/
theorem max_apply :
    k0_pay11 x0 x1 x2 mo (ix2 0 0)
      = max (mo (ix2 0 0)) (Finset.univ.fold max ⊥ (fun r : Fin 2048 => k0_pay10 x0 x1 x2 (ix2 0 r))) := by
  unfold k0_pay11
  refine congrArg (max (mo (ix2 0 0))) ?_
  refine (shapeCast_a_a1_apply _ _ 0 0).trans ?_
  refine (Ideal.multiReduction_maximumf_single _ _ _ _ _ _).trans ?_
  show Finset.univ.fold max (Ideal.ofBits .f32 0xFF800000#32) _ = _
  rw [ofBits_neg_inf]
  exact congrArg (Finset.univ.fold max ⊥) (funext fun k => congrArg (k0_pay10 x0 x1 x2) (lift_eq k))

/-- The factor that rescales what was carried to the new maximum. -/
theorem corr_apply :
    k0_pay12 x0 x1 x2 mo (ix2 0 0) = Ideal.exp (mo (ix2 0 0) - k0_pay11 x0 x1 x2 mo (ix2 0 0)) := rfl

/-- The unnormalised weight of row `r` against the new maximum. -/
theorem p_apply (r : Fin 2048) :
    k0_pay13 x0 x1 x2 mo (ix2 0 r) = Ideal.exp (k0_pay10 x0 x1 x2 (ix2 0 r) - k0_pay11 x0 x1 x2 mo (ix2 0 0)) := by
  unfold k0_pay13
  refine congrArg Ideal.exp ?_
  refine congrArg (k0_pay10 x0 x1 x2 (ix2 0 r) - ·) ?_
  exact broadcastTo_a1_ab_apply _ _ 0 r

/-- The new running normaliser. -/
theorem norm_apply :
    k0_pay14 x0 x1 x2 mo lo (ix2 0 0)
      = k0_pay12 x0 x1 x2 mo (ix2 0 0) * lo (ix2 0 0) + ∑ r : Fin 2048, k0_pay13 x0 x1 x2 mo (ix2 0 r) := by
  unfold k0_pay14
  rw [shapeCast_self]
  refine congrArg (k0_pay12 x0 x1 x2 mo (ix2 0 0) * lo (ix2 0 0) + ·) ?_
  refine (shapeCast_a_a1_apply _ _ 0 0).trans ?_
  refine (Ideal.multiReduction_add_single _ _ _ _ _ _).trans ?_
  exact Finset.sum_congr rfl fun k _ => congrArg (k0_pay13 x0 x1 x2 mo) (lift_eq k)

/-- The tile's contribution to column `h` of the weighted sum. -/
theorem pv_apply (h : Fin 1024) :
    k0_pay15 x0 x1 x2 mo (ix2 0 h) = ∑ r : Fin 2048, k0_pay13 x0 x1 x2 mo (ix2 0 r) * x0 (ix2 r h) := by
  unfold k0_pay15 k0_pay9
  refine (Ideal.matmul_constant_zero_apply dAcc none _ _ _).trans ?_
  refine (Cert.LibDot.plain_sum dAcc rfl rfl dAcc_l0 dAcc_l1 dAcc_r0 dAcc_r1 _ _ 0 h).trans ?_
  refine Finset.sum_congr rfl fun k _ => ?_
  simp only [truncf_apply, shapeCast_self]

/-- The carried weighted sum rescaled to the new maximum. -/
theorem rescaled_apply (h : Fin 1024) :
    k0_pay16 x0 x1 x2 mo ao (ix2 0 h) = k0_pay12 x0 x1 x2 mo (ix2 0 0) * ao (ix2 0 h) := by
  unfold k0_pay16
  refine congrArg (· * ao (ix2 0 h)) ?_
  exact broadcastTo_a1_ab_apply _ _ 0 h

/-- The new running weighted sum: the rescaled carried one plus the tile's contribution. -/
theorem acc_apply (v32 v35 : FVec Ideal S1x1024 .f32) (h : Fin 1024) :
    k0_pay1 v32 v35 (ix2 0 h) = v35 (ix2 0 h) + v32 (ix2 0 h) := by
  unfold k0_pay1
  rw [shapeCast_self]
  rfl

theorem keep_apply (v : FVec Ideal S1x1 .f32) : k0_pay2 v = v := by
  unfold k0_pay2
  rw [shapeCast_self]

/-- The reset values: -inf for the maximum, zero for the normaliser and the weighted sum. -/
theorem reset_max : (k0_pay6 (F := Ideal)) (ix2 0 0) = ⊥ := by
  unfold k0_pay6
  rw [shapeCast_self]
  exact ofBits_neg_inf
theorem reset_norm : (k0_pay7 (F := Ideal)) (ix2 0 0) = 0 := by
  unfold k0_pay7
  rw [shapeCast_self]
  exact Ideal.ofBits_zero_f32
theorem reset_acc (h : Fin 1024) : (k0_pay8 (F := Ideal)) (ix2 0 h) = 0 := by
  unfold k0_pay8
  rw [shapeCast_self]
  exact Ideal.ofBits_zero_f32

/-- The copies to the small outputs only add a leading unit axis. -/
theorem out_max_apply (v : Vec Ideal S1x1 .f32) : k0_pay3 v (ix3 0 0 0) = v (ix2 0 0) := by
  unfold k0_pay3
  exact (shapeCast_addUnit_apply ![1, 1] v _ (ix3 0 0 0)).trans (congrArg v (funext fun a => by match a with | ⟨0, _⟩ => rfl | ⟨1, _⟩ => rfl))
theorem out_norm_apply (v : Vec Ideal S1x1 .f32) : k0_pay4 v (ix3 0 0 0) = v (ix2 0 0) := by
  unfold k0_pay4
  exact (shapeCast_addUnit_apply ![1, 1] v _ (ix3 0 0 0)).trans (congrArg v (funext fun a => by match a with | ⟨0, _⟩ => rfl | ⟨1, _⟩ => rfl))
theorem out_acc_apply (v : Vec Ideal S1x1024 .f32) (h : Fin 1024) : k0_pay5 v (ix3 0 0 h) = v (ix2 0 h) := by
  unfold k0_pay5
  exact (shapeCast_addUnit_apply ![1, 1024] v _ (ix3 0 0 h)).trans (congrArg v (funext fun a => by match a with | ⟨0, _⟩ => rfl | ⟨1, _⟩ => rfl))

end Cert.KernelIdeal.KPayload
end
-- ==== Proof.KRows.lean ====
/-
  How the 32768 memory rows are cut: sixteen tiles of 2048 consecutive rows, tiles 0–7 consumed by the first
  half of the grid and tiles 8–15 by the second. After the grid point `n` the rows consumed by its half so far
  are those from the half's first row up to the end of tile `n`.
-/
import Mathlib

namespace Attn

/-- Row `r` of tile `n`. -/
def rowOf (n : ℕ) (hn : n < 16) : Fin 2048 ↪ Fin 32768 :=
  ⟨fun r => ⟨n * 2048 + r.val, by have := r.isLt; omega⟩, fun a b h => by
    have := congrArg Fin.val h; simp only at this; exact Fin.ext (by omega)⟩

theorem rowOf_val (n : ℕ) (hn : n < 16) (r : Fin 2048) : (rowOf n hn r).val = n * 2048 + r.val := rfl

/-- The rows of tile `n`. -/
def tile (n : ℕ) (hn : n < 16) : Finset (Fin 32768) := Finset.univ.map (rowOf n hn)

theorem mem_tile (n : ℕ) (hn : n < 16) (i : Fin 32768) : i ∈ tile n hn ↔ n * 2048 ≤ i.val ∧ i.val < (n + 1) * 2048 := by
  unfold tile
  rw [Finset.mem_map]
  constructor
  · rintro ⟨r, _, rfl⟩
    have := r.isLt
    rw [rowOf_val]; omega
  · intro h
    exact ⟨⟨i.val - n * 2048, by omega⟩, Finset.mem_univ _, Fin.ext (by rw [rowOf_val]; simp only; omega)⟩

/-- The rows the half of point `n` has consumed once point `n` is done. -/
def pre (n : ℕ) : Finset (Fin 32768) :=
  Finset.univ.filter fun i => (n / 8) * 16384 ≤ i.val ∧ i.val < (n + 1) * 2048

theorem mem_pre (n : ℕ) (i : Fin 32768) : i ∈ pre n ↔ (n / 8) * 16384 ≤ i.val ∧ i.val < (n + 1) * 2048 := by
  unfold pre; simp

/-- At a half's first point the consumed rows are just the tile. -/
theorem pre_first (n : ℕ) (hn : n < 16) (h : n % 8 = 0) : pre n = ∅ ∪ tile n hn := by
  ext i
  rw [Finset.empty_union, mem_pre, mem_tile]
  omega

/-- At a later point they are those of the point before together with the tile. -/
theorem pre_succ (n : ℕ) (hn : n + 1 < 16) (h : ¬(n + 1) % 8 = 0) : pre (n + 1) = pre n ∪ tile (n + 1) hn := by
  ext i
  rw [Finset.mem_union, mem_pre, mem_pre, mem_tile]
  omega

theorem pre_disjoint (n : ℕ) (hn : n + 1 < 16) : Disjoint (pre n) (tile (n + 1) hn) := by
  rw [Finset.disjoint_left]
  intro i hi hj
  rw [mem_pre] at hi
  rw [mem_tile] at hj
  omega

/-- The rows of half `c`. -/
def half (c : Fin 2) : Finset (Fin 32768) := pre (8 * c.val + 7)

theorem mem_half (c : Fin 2) (i : Fin 32768) : i ∈ half c ↔ c.val * 16384 ≤ i.val ∧ i.val < (c.val + 1) * 16384 := by
  unfold half
  rw [mem_pre]
  have := c.isLt
  omega

theorem half_union : half 0 ∪ half 1 = Finset.univ := by
  ext i
  have := i.isLt
  rw [Finset.mem_union, mem_half, mem_half]
  simp only [Finset.mem_univ, iff_true, Fin.val_zero, Fin.val_one]
  omega

theorem half_disjoint : Disjoint (half 0) (half 1) := by
  rw [Finset.disjoint_left]
  intro i hi hj
  rw [mem_half] at hi hj
  simp only [Fin.val_zero, Fin.val_one] at hi hj
  omega

theorem half_nonempty (c : Fin 2) : (half c).Nonempty :=
  ⟨⟨c.val * 16384, by have := c.isLt; omega⟩, by rw [mem_half]; show c.val * 16384 ≤ c.val * 16384 ∧ c.val * 16384 < (c.val + 1) * 16384; omega⟩

end Attn
-- ==== Proof.Finite.lean ====
/-
  The inputs are real numbers.

  The precondition says of each of the four float inputs that every entry has absolute value below +∞. On the
  extended reals that is: no entry is +∞ or −∞. From it, every score is a real number, being a finite sum of
  products of reals plus a real.
-/
import proofs.«170956_j42322607735440_2_alg».proof.Defs
import proofs.«170956_j42322607735440_2_alg».proof.Proof.Gen.Pre_finite_inputs
import proofs.«170956_j42322607735440_2_alg».proof.Proof.Spec
import Idealize.ShloMosaic.Lib.ReduceAll
import Idealize.ShloMosaic.Lib.ValueIdx
import Idealize.ShloMosaic.PureOps.Ideal.Laws

noncomputable section

namespace Cert.KernelIdeal.Finite

open Idealize.ShloMosaic Idealize.ShloMosaic.TcCoe Idealize.SL.Sem Idealize.ShloMosaic.ValueIdx
open Cert.Pre_finite_inputs Cert.Pre_finite_inputs.Facts

/-- The shape with no axes has one index. -/
instance : Subsingleton (⟨0, ![]⟩ : Shape).Idx := ⟨fun a b => funext fun d => d.elim0⟩

/-- +∞ as a bit pattern is the top element. -/
theorem ofBits_pos_inf : Ideal.ofBits .f32 0x7F800000#32 = (⊤ : EReal) := by
  simp [Ideal.ofBits, Ideal.ieee]

/-- An extended real whose absolute value is below +∞ is neither infinity. -/
theorem real_of_abs_lt_inf (x : EReal)
    (h : FloatOps.cmpf (F := Ideal) (φ := .f32) .olt (FloatOps.hostAbsf (F := Ideal) (φ := .f32) x)
      (FloatOps.ofBits (F := Ideal) .f32 0x7F800000#32) = 1#1) :
    x ≠ ⊤ ∧ x ≠ ⊥ := by
  have h' : BitVec.ofBool (decide (max x (-x) < Ideal.ofBits .f32 0x7F800000#32)) = 1#1 := h
  rw [ofBits_pos_inf] at h'
  have hlt : max x (-x) < ⊤ := by
    by_contra hn
    simp [hn] at h'
  rw [max_lt_iff] at hlt
  refine ⟨hlt.1.ne, ?_⟩
  intro hx
  rw [hx] at hlt
  simp at hlt

/-- The precondition's function is all ones only if no entry of any input is an infinity. -/
theorem finite_of_fn (x0 : FVec Ideal S1x1024 .f32) (x1 : FVec Ideal S32768x1x1024 .f32) (x2 : FVec Ideal S1x2048 .f32)
    (x3 : FVec Ideal S1 .f32) (h : fn (F := Ideal) x0 x1 x2 x3 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥) := by
  have e := congrFun h ValueIdx.ix0
  dsimp only [fn, fn_part1, andi] at e
  rw [IntOp.andi_eq_one, IntOp.andi_eq_one, IntOp.andi_eq_one] at e
  obtain ⟨⟨⟨e0, e1⟩, e2⟩, e3⟩ := e
  exact ⟨fun i => real_of_abs_lt_inf (x0 i) (Host.reduce_andi_all _ _ _ _ _ e0 i),
    fun i => real_of_abs_lt_inf (x1 i) (Host.reduce_andi_all _ _ _ _ _ e1 i),
    fun i => real_of_abs_lt_inf (x2 i) (Host.reduce_andi_all _ _ _ _ _ e2 i),
    fun i => real_of_abs_lt_inf (x3 i) (Host.reduce_andi_all _ _ _ _ _ e3 i)⟩

/-- From the precondition, on every device, every entry of every float input is a real number. -/
theorem finite_of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, m ((c.tc : Thread Cert.KernelIdeal.nD Cert.KernelIdeal.τ).loc Cert.KernelIdeal.main_arg0) i ≠ (⊤ : EReal)
        ∧ m ((c.tc : Thread Cert.KernelIdeal.nD Cert.KernelIdeal.τ).loc Cert.KernelIdeal.main_arg0) i ≠ (⊥ : EReal))
    ∧ (∀ i, m ((c.tc : Thread Cert.KernelIdeal.nD Cert.KernelIdeal.τ).loc Cert.KernelIdeal.main_arg1) i ≠ (⊤ : EReal)
        ∧ m ((c.tc : Thread Cert.KernelIdeal.nD Cert.KernelIdeal.τ).loc Cert.KernelIdeal.main_arg1) i ≠ (⊥ : EReal))
    ∧ (∀ i, m ((c.tc : Thread Cert.KernelIdeal.nD Cert.KernelIdeal.τ).loc Cert.KernelIdeal.main_arg2) i ≠ (⊤ : EReal)
        ∧ m ((c.tc : Thread Cert.KernelIdeal.nD Cert.KernelIdeal.τ).loc Cert.KernelIdeal.main_arg2) i ≠ (⊥ : EReal))
    ∧ (∀ i, m ((c.tc : Thread Cert.KernelIdeal.nD Cert.KernelIdeal.τ).loc Cert.KernelIdeal.main_arg3) i ≠ (⊤ : EReal)
        ∧ m ((c.tc : Thread Cert.KernelIdeal.nD Cert.KernelIdeal.τ).loc Cert.KernelIdeal.main_arg3) i ≠ (⊥ : EReal)) :=
  finite_of_fn _ _ _ _ (h c)

/-! ## The scores are real -/

/-- A finite sum of reals, taken in the extended reals, is the real sum. -/
theorem coe_sum {ι : Type} (S : Finset ι) (f : ι → ℝ) : ∑ i ∈ S, (f i : EReal) = ((∑ i ∈ S, f i : ℝ) : EReal) := by
  classical
  induction S using Finset.induction_on with
  | empty => simp
  | insert a s ha ih => rw [Finset.sum_insert ha, Finset.sum_insert ha, ih, EReal.coe_add]

/-- With real inputs every score is a real number. -/
theorem score_real (d : Attn.SD.Idx → EReal) (E : Attn.SE.Idx → EReal) (W : Attn.SW.Idx → EReal) (b : Attn.SB.Idx → EReal)
    (hd : ∀ i, d i ≠ ⊤ ∧ d i ≠ ⊥) (hE : ∀ i, E i ≠ ⊤ ∧ E i ≠ ⊥) (hW : ∀ i, W i ≠ ⊤ ∧ W i ≠ ⊥) (hb : ∀ i, b i ≠ ⊤ ∧ b i ≠ ⊥)
    (t : Fin 32768) : ∃ s : ℝ, Attn.score d E W b t = (s : EReal) := by
  lift d to Attn.SD.Idx → ℝ using hd
  lift E to Attn.SE.Idx → ℝ using hE
  lift W to Attn.SW.Idx → ℝ using hW
  lift b to Attn.SB.Idx → ℝ using hb
  unfold Attn.score Attn.decBias
  simp only [← EReal.coe_mul, coe_sum, ← EReal.coe_add]
  exact ⟨_, rfl⟩

/-- The score with each product's factors in the other order. -/
theorem score_comm (d : Attn.SD.Idx → EReal) (E : Attn.SE.Idx → EReal) (W : Attn.SW.Idx → EReal) (b : Attn.SB.Idx → EReal)
    (t : Fin 32768) :
    (∑ k : Fin 1024, W (ix2 0 (Attn.wEnc k)) * E (ix3 t 0 k)) + Attn.decBias d W b = Attn.score d E W b t := by
  unfold Attn.score
  exact congrArg (· + Attn.decBias d W b) (Finset.sum_congr rfl fun k _ => mul_comm _ _)

end Cert.KernelIdeal.Finite

end
-- ==== Proof.KBlocks.lean ====
/-
  What a grid point reads, in terms of the arguments.

  At grid point `t` the first window's block is tile `t` of the encoder memory viewed as a 32768 × 1024 matrix
  (row `r` of the block is memory row `2048 t + r`), and the other two windows always hold the encoder half of
  the weight row and the decoder bias. So the 2048 scores a point computes are the scores of the tile's rows.
-/
import proofs.«170956_j42322607735440_2_alg».proof.Proof.Gen.KernelIdeal.Frame
import proofs.«170956_j42322607735440_2_alg».proof.Proof.KPayload
import proofs.«170956_j42322607735440_2_alg».proof.Proof.KRows
import proofs.«170956_j42322607735440_2_alg».proof.Proof.Finite
import Idealize.ShloMosaic.Lib.Pipeline.Value

noncomputable section

open scoped BigOperators
open Idealize.ShloMosaic Idealize.ShloMosaic.TcCoe Idealize.SL.Sem Idealize.ShloMosaic.ValueIdx

namespace Cert.KernelIdeal.KBlocks

open Cert.KernelIdeal Cert.KernelIdeal.Gen

variable (m : (ℓ : Loc nD τ sig) → Buf (Elt Ideal) ℓ) (c : Dev nD)

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)

/-- Row `r` of the encoder block at point `t` is row `2048 t + r` of the encoder matrix. -/
theorem blk0 (t : Fin cfg0.N) (ht : t.val < 16) (r : Fin 2048) (k : Fin 1024) :
    (iblk m c 0 t : Vec Ideal S2048x1024 .f32) (ix2 r k)
      = (V m c main_v0 : S32768x1024.Idx → EReal) (ix2 (Attn.rowOf t.val ht r) k) := by
  unfold iblk
  rw [View.read_apply]
  show (V m c main_v0 : S32768x1024.Idx → EReal) _ = _
  congr 1
  funext a; apply Fin.ext
  match a with
  | ⟨0, _⟩ => show win0_0.index t (0 : Fin 2) * 2048 + 1 * r.val = t.val * 2048 + r.val; rw [(idx0 t).1]; omega
  | ⟨1, _⟩ => show win0_0.index t (1 : Fin 2) * 1024 + 1 * k.val = k.val; rw [(idx0 t).2]; omega

/-- The second window's block is the whole encoder half of the weight row. -/
theorem blk1 (t : Fin cfg0.N) (k : Fin 1024) :
    (iblk m c 1 t : Vec Ideal S1x1024 .f32) (ix2 0 k) = (V m c main_v2 : S1x1024.Idx → EReal) (ix2 0 k) := by
  unfold iblk
  rw [View.read_apply]
  show (V m c main_v2 : S1x1024.Idx → EReal) _ = _
  congr 1
  funext a; apply Fin.ext
  match a with
  | ⟨0, _⟩ => show win0_1.index t (0 : Fin 2) * 1 + 1 * 0 = 0; rw [(idx1 t).1]
  | ⟨1, _⟩ => show win0_1.index t (1 : Fin 2) * 1024 + 1 * k.val = k.val; rw [(idx1 t).2]; omega

/-- The third window's block is the decoder bias. -/
theorem blk2 (t : Fin cfg0.N) :
    (iblk m c 2 t : Vec Ideal S1x1 .f32) (ix2 0 0) = (V m c main_v6 : S1x1.Idx → EReal) (ix2 0 0) := by
  unfold iblk
  rw [View.read_apply]
  show (V m c main_v6 : S1x1.Idx → EReal) _ = _
  congr 1
  funext a; apply Fin.ext
  match a with
  | ⟨0, _⟩ => show win0_2.index t (0 : Fin 2) * 1 + 1 * 0 = 0; rw [(idx2 t).1]
  | ⟨1, _⟩ => show win0_2.index t (1 : Fin 2) * 1 + 1 * 0 = 0; rw [(idx2 t).2]

end Cert.KernelIdeal.KBlocks
end
-- ==== Proof.OnlineSoftmax.lean ====
import Mathlib
import Idealize.ShloMosaic.PureOps.Ideal

/-!
# The algebra of the streaming softmax over the extended reals

For real scores s_i and real values e_i indexed by a finite set S, put
m_S = max_{i ∈ S} s_i (with m_∅ = -∞),
l_S = Σ_{i ∈ S} exp (s_i - m_S) and a_S = Σ_{i ∈ S} exp (s_i - m_S) · e_i.
The streaming algorithm updates (m, l, a) one block at a time; the identities below say
that every update and every merge of two partial results reproduces (m, l, a) of the union,
and that the final quotient a_U / l_U is the softmax-weighted sum of the values.

Everything reduces to the real identity exp (M - M') · exp (s - M) = exp (s - M'): changing the
reference point of the exponentials from M to M' multiplies every term by exp (M - M').
-/

noncomputable section
namespace Attn
open Idealize.ShloMosaic
variable {ι : Type*} [DecidableEq ι]

/-- running maximum of the scores over S (⊥ on the empty set) -/
def mS (s : ι → ℝ) (S : Finset ι) : EReal := S.sup fun i => (s i : EReal)
/-- running normaliser: Σ_{i∈S} exp (s i - max) -/
def lS (s : ι → ℝ) (S : Finset ι) : EReal := ∑ i ∈ S, Ideal.exp ((s i : EReal) - mS s S)
/-- running weighted sum: Σ_{i∈S} exp (s i - max) · e i -/
def aS (s e : ι → ℝ) (S : Finset ι) : EReal :=
  ∑ i ∈ S, Ideal.exp ((s i : EReal) - mS s S) * (e i : EReal)

theorem mS_empty (s : ι → ℝ) : mS s ∅ = ⊥ := Finset.sup_empty
theorem lS_empty (s : ι → ℝ) : lS s ∅ = 0 := Finset.sum_empty
theorem aS_empty (s e : ι → ℝ) : aS s e ∅ = 0 := Finset.sum_empty

/-- the maximum over a union is the larger of the two maxima -/
theorem mS_union (s : ι → ℝ) (S T : Finset ι) : mS s (S ∪ T) = max (mS s S) (mS s T) :=
  Finset.sup_union

/-- the embedding of the reals into the extended reals commutes with max -/
theorem ereal_coe_max (x y : ℝ) : ((max x y : ℝ) : EReal) = max (x : EReal) (y : EReal) :=
  EReal.coe_strictMono.monotone.map_max

/-- the embedding of the reals into the extended reals commutes with finite sums -/
theorem ereal_coe_sum (S : Finset ι) (f : ι → ℝ) :
    ∑ i ∈ S, ((f i : ℝ) : EReal) = ((∑ i ∈ S, f i : ℝ) : EReal) := by
  induction S using Finset.induction_on with
  | empty => simp
  | insert a S ha ih => rw [Finset.sum_insert ha, Finset.sum_insert ha, ih, EReal.coe_add]

/-- over a nonempty set the maximum of real scores is a real number -/
theorem exists_mS_eq (s : ι → ℝ) {S : Finset ι} (hS : S.Nonempty) :
    ∃ M : ℝ, mS s S = (M : EReal) := by
  induction hS using Finset.Nonempty.cons_induction with
  | singleton a => exact ⟨s a, by simp [mS]⟩
  | cons a S ha hS ih =>
    obtain ⟨M, hM⟩ := ih
    refine ⟨max (s a) M, ?_⟩
    unfold mS at hM ⊢
    rw [Finset.sup_cons, hM, ereal_coe_max]

/-- with a real reference point M, the sum of exponentials is the embedding of a real sum -/
theorem sum_exp_coe (s : ι → ℝ) (S : Finset ι) (M : ℝ) :
    ∑ i ∈ S, Ideal.exp ((s i : EReal) - (M : EReal))
      = ((∑ i ∈ S, Real.exp (s i - M) : ℝ) : EReal) := by
  rw [← ereal_coe_sum]
  refine Finset.sum_congr rfl fun i _ => ?_
  rw [← EReal.coe_sub, Ideal.exp_coe]

/-- the weighted version of the previous lemma -/
theorem sum_exp_mul_coe (s e : ι → ℝ) (S : Finset ι) (M : ℝ) :
    ∑ i ∈ S, Ideal.exp ((s i : EReal) - (M : EReal)) * (e i : EReal)
      = ((∑ i ∈ S, Real.exp (s i - M) * e i : ℝ) : EReal) := by
  rw [← ereal_coe_sum]
  refine Finset.sum_congr rfl fun i _ => ?_
  rw [← EReal.coe_sub, Ideal.exp_coe, ← EReal.coe_mul]

/-- changing the reference point from M to M' multiplies the sum by exp (M - M'),
    because exp (M - M') * exp (s - M) = exp (s - M') -/
theorem sum_exp_rebase (s : ι → ℝ) (S : Finset ι) (M M' : ℝ) :
    ∑ i ∈ S, Ideal.exp ((s i : EReal) - (M' : EReal))
      = Ideal.exp ((M : EReal) - (M' : EReal)) * ∑ i ∈ S, Ideal.exp ((s i : EReal) - (M : EReal)) := by
  rw [sum_exp_coe, sum_exp_coe, ← EReal.coe_sub, Ideal.exp_coe, ← EReal.coe_mul, Finset.mul_sum]
  congr 1
  refine Finset.sum_congr rfl fun i _ => ?_
  rw [← Real.exp_add]
  congr 1
  ring

/-- the weighted version of the change of reference point -/
theorem sum_exp_mul_rebase (s e : ι → ℝ) (S : Finset ι) (M M' : ℝ) :
    ∑ i ∈ S, Ideal.exp ((s i : EReal) - (M' : EReal)) * (e i : EReal)
      = Ideal.exp ((M : EReal) - (M' : EReal))
          * ∑ i ∈ S, Ideal.exp ((s i : EReal) - (M : EReal)) * (e i : EReal) := by
  rw [sum_exp_mul_coe, sum_exp_mul_coe, ← EReal.coe_sub, Ideal.exp_coe, ← EReal.coe_mul,
    Finset.mul_sum]
  congr 1
  refine Finset.sum_congr rfl fun i _ => ?_
  rw [← mul_assoc, ← Real.exp_add]
  congr 2
  ring

/-- one streaming step: the old normaliser is rescaled to the new maximum and the new block's
    exponentials are added.  If S is empty the old maximum is ⊥ and the old normaliser 0,
    so the first summand vanishes. -/
theorem lS_step (s : ι → ℝ) (S T : Finset ι) (hd : Disjoint S T) (hT : T.Nonempty) :
    lS s (S ∪ T) = Ideal.exp (mS s S - max (mS s S) (mS s T)) * lS s S
                    + ∑ i ∈ T, Ideal.exp ((s i : EReal) - max (mS s S) (mS s T)) := by
  rcases S.eq_empty_or_nonempty with rfl | hS
  · simp [mS_empty, lS_empty, lS]
  · obtain ⟨M1, h1⟩ := exists_mS_eq s hS
    obtain ⟨M2, h2⟩ := exists_mS_eq s hT
    have hU : mS s (S ∪ T) = ((max M1 M2 : ℝ) : EReal) := by rw [mS_union, h1, h2, ereal_coe_max]
    simp only [lS]
    rw [hU, h1, h2, ← ereal_coe_max, Finset.sum_union hd, ← sum_exp_rebase]

/-- one streaming step for the weighted sum -/
theorem aS_step (s e : ι → ℝ) (S T : Finset ι) (hd : Disjoint S T) (hT : T.Nonempty) :
    aS s e (S ∪ T) = Ideal.exp (mS s S - max (mS s S) (mS s T)) * aS s e S
                    + ∑ i ∈ T, Ideal.exp ((s i : EReal) - max (mS s S) (mS s T)) * (e i : EReal) := by
  rcases S.eq_empty_or_nonempty with rfl | hS
  · simp [mS_empty, aS_empty, aS]
  · obtain ⟨M1, h1⟩ := exists_mS_eq s hS
    obtain ⟨M2, h2⟩ := exists_mS_eq s hT
    have hU : mS s (S ∪ T) = ((max M1 M2 : ℝ) : EReal) := by rw [mS_union, h1, h2, ereal_coe_max]
    simp only [aS]
    rw [hU, h1, h2, ← ereal_coe_max, Finset.sum_union hd, ← sum_exp_mul_rebase]

/-- merging two finished halves: each normaliser is rescaled to the common maximum -/
theorem lS_merge (s : ι → ℝ) (S T : Finset ι) (hd : Disjoint S T) (hS : S.Nonempty)
    (hT : T.Nonempty) :
    lS s (S ∪ T) = lS s S * Ideal.exp (mS s S - max (mS s S) (mS s T))
      + lS s T * Ideal.exp (mS s T - max (mS s S) (mS s T)) := by
  obtain ⟨M1, h1⟩ := exists_mS_eq s hS
  obtain ⟨M2, h2⟩ := exists_mS_eq s hT
  rw [lS_step s S T hd hT, mul_comm (lS s S), mul_comm (lS s T)]
  congr 1
  simp only [lS]
  rw [h1, h2, ← ereal_coe_max, ← sum_exp_rebase]

/-- merging two finished halves of the weighted sum -/
theorem aS_merge (s e : ι → ℝ) (S T : Finset ι) (hd : Disjoint S T) (hS : S.Nonempty)
    (hT : T.Nonempty) :
    aS s e (S ∪ T) = aS s e S * Ideal.exp (mS s S - max (mS s S) (mS s T))
      + aS s e T * Ideal.exp (mS s T - max (mS s S) (mS s T)) := by
  obtain ⟨M1, h1⟩ := exists_mS_eq s hS
  obtain ⟨M2, h2⟩ := exists_mS_eq s hT
  rw [aS_step s e S T hd hT, mul_comm (aS s e S), mul_comm (aS s e T)]
  congr 1
  simp only [aS]
  rw [h1, h2, ← ereal_coe_max, ← sum_exp_mul_rebase]

/-- the final normalisation: the normaliser of a nonempty set is a positive real L, so dividing
    by it is multiplying by 1 / L, which distributes over the finite sum -/
theorem div_sum (s e : ι → ℝ) (U : Finset ι) (hU : U.Nonempty) :
    Ideal.div (aS s e U) (lS s U)
      = ∑ i ∈ U, Ideal.div (Ideal.exp ((s i : EReal) - mS s U)) (lS s U) * (e i : EReal) := by
  obtain ⟨M, hM⟩ := exists_mS_eq s hU
  have hL : lS s U = ((∑ i ∈ U, Real.exp (s i - M) : ℝ) : EReal) := by
    rw [lS, hM, sum_exp_coe]
  have hpos : (0 : ℝ) < ∑ i ∈ U, Real.exp (s i - M) :=
    Finset.sum_pos (fun i _ => Real.exp_pos _) hU
  have hA : aS s e U = ((∑ i ∈ U, Real.exp (s i - M) * e i : ℝ) : EReal) := by
    rw [aS, hM, sum_exp_mul_coe]
  rw [hA, hL, hM, Ideal.div_coe hpos.ne', ← EReal.coe_mul, Finset.sum_mul, ← ereal_coe_sum]
  refine Finset.sum_congr rfl fun i _ => ?_
  rw [Ideal.div_coe hpos.ne', ← EReal.coe_sub, Ideal.exp_coe, ← EReal.coe_mul, ← EReal.coe_mul]
  congr 1
  ring

end Attn
-- ==== Proof.KStep.lean ====
/-
  One grid point advances the streaming softmax by one tile.

  Suppose the carried maximum, normaliser and weighted sums are those of a set `S` of memory rows already
  consumed (`S` may be empty: then they are -inf, 0 and 0, which is what the reset stores), and the tile just
  read holds the rows `rowT 0 … rowT 2047`, with real scores `s` and real entries `e h`. Then the point leaves
  the maximum, normaliser and weighted sums of `S` together with the tile's rows.
-/
import proofs.«170956_j42322607735440_2_alg».proof.Proof.KPayload
import proofs.«170956_j42322607735440_2_alg».proof.Proof.OnlineSoftmax

noncomputable section

open scoped BigOperators

namespace Cert.KernelIdeal.KStep

open Cert.KernelIdeal Cert.KernelIdeal.Gen Cert.KernelIdeal.KPayload Idealize.ShloMosaic Idealize.ShloMosaic.ValueIdx Attn

variable {ι : Type} [DecidableEq ι]
variable (s : ι → ℝ) (e : Fin 1024 → ι → ℝ) (S : Finset ι) (rowT : Fin 2048 ↪ ι)
variable (x0 : Vec Ideal S2048x1024 .f32) (x1 : Vec Ideal S1x1024 .f32) (x2 : Vec Ideal S1x1 .f32)
  (mo lo : Vec Ideal S1x1 .f32) (ao : Vec Ideal S1x1024 .f32)

theorem tile_nonempty : (Finset.univ.map rowT).Nonempty := ⟨rowT 0, Finset.mem_map_of_mem _ (Finset.mem_univ _)⟩

/-- The largest score of the tile is the maximum over the tile's rows. -/
theorem tile_max (hsc : ∀ r, k0_pay10 x0 x1 x2 (ix2 0 r) = (s (rowT r) : EReal)) :
    Finset.univ.fold max ⊥ (fun r : Fin 2048 => k0_pay10 x0 x1 x2 (ix2 0 r)) = mS s (Finset.univ.map rowT) := by
  rw [show (fun r : Fin 2048 => k0_pay10 x0 x1 x2 (ix2 0 r)) = fun r => (s (rowT r) : EReal) from funext hsc]
  unfold mS
  rw [Finset.sup_map]
  rfl

theorem step_max' (hsc : ∀ r, k0_pay10 x0 x1 x2 (ix2 0 r) = (s (rowT r) : EReal)) (hm : mo (ix2 0 0) = mS s S) :
    k0_pay11 x0 x1 x2 mo (ix2 0 0) = max (mS s S) (mS s (Finset.univ.map rowT)) := by
  rw [max_apply, hm, tile_max s rowT x0 x1 x2 hsc]

/-- The new maximum is that of `S` with the tile. -/
theorem step_max (hsc : ∀ r, k0_pay10 x0 x1 x2 (ix2 0 r) = (s (rowT r) : EReal)) (hm : mo (ix2 0 0) = mS s S) :
    k0_pay11 x0 x1 x2 mo (ix2 0 0) = mS s (S ∪ Finset.univ.map rowT) :=
  (step_max' s S rowT x0 x1 x2 mo hsc hm).trans (mS_union s S _).symm

/-- The new normaliser is that of `S` with the tile. -/
theorem step_norm (hsc : ∀ r, k0_pay10 x0 x1 x2 (ix2 0 r) = (s (rowT r) : EReal)) (hm : mo (ix2 0 0) = mS s S)
    (hl : lo (ix2 0 0) = lS s S) (hd : Disjoint S (Finset.univ.map rowT)) :
    k0_pay14 x0 x1 x2 mo lo (ix2 0 0) = lS s (S ∪ Finset.univ.map rowT) := by
  have hM := step_max' s S rowT x0 x1 x2 mo hsc hm
  rw [norm_apply, corr_apply, hM, hm, hl, lS_step s S _ hd (tile_nonempty rowT), Finset.sum_map]
  refine congrArg _ (Finset.sum_congr rfl fun r _ => ?_)
  rw [p_apply, hsc, hM]

/-- The new weighted sums are those of `S` with the tile. -/
theorem step_acc (hsc : ∀ r, k0_pay10 x0 x1 x2 (ix2 0 r) = (s (rowT r) : EReal))
    (hx0 : ∀ r h, x0 (ix2 r h) = (e h (rowT r) : EReal)) (hm : mo (ix2 0 0) = mS s S)
    (ha : ∀ h, ao (ix2 0 h) = aS s (e h) S) (hd : Disjoint S (Finset.univ.map rowT)) (h : Fin 1024) :
    k0_pay1 (k0_pay15 x0 x1 x2 mo) (k0_pay16 x0 x1 x2 mo ao) (ix2 0 h) = aS s (e h) (S ∪ Finset.univ.map rowT) := by
  have hM := step_max' s S rowT x0 x1 x2 mo hsc hm
  rw [acc_apply, rescaled_apply, pv_apply, corr_apply, hM, hm, ha, aS_step s (e h) S _ hd (tile_nonempty rowT), Finset.sum_map]
  refine congrArg _ (Finset.sum_congr rfl fun r _ => ?_)
  rw [p_apply, hsc, hM, hx0]

/-- The new maximum as it is stored (the store keeps it unchanged). -/
theorem step_max_kept (hsc : ∀ r, k0_pay10 x0 x1 x2 (ix2 0 r) = (s (rowT r) : EReal)) (hm : mo (ix2 0 0) = mS s S) :
    k0_pay2 (k0_pay11 x0 x1 x2 mo) (ix2 0 0) = mS s (S ∪ Finset.univ.map rowT) := by
  rw [keep_apply]
  exact step_max s S rowT x0 x1 x2 mo hsc hm

end Cert.KernelIdeal.KStep
end
-- ==== Proof.KInv.lean ====
/-
  The carried buffers hold the streaming softmax of the rows consumed so far.

  Under the precondition every score is a real number `s i` and every memory entry a real number `e h i`.
  After grid point `n` the carried maximum, normaliser and weighted sums are those of the rows its half has
  consumed up to the end of tile `n` (by induction on the point: a half's first point starts from the reset
  values, which are those of the empty set of rows); the point's output block holds the scores of the tile's
  rows; and a half's last point copies the half's three quantities to the small outputs.
-/
import proofs.«170956_j42322607735440_2_alg».proof.Proof.KPoints
import proofs.«170956_j42322607735440_2_alg».proof.Proof.KBlocks
import proofs.«170956_j42322607735440_2_alg».proof.Proof.KStep
import proofs.«170956_j42322607735440_2_alg».proof.Proof.KHost

noncomputable section

open scoped BigOperators
open Idealize.ShloMosaic Idealize.ShloMosaic.TcCoe Idealize.SL.Sem Idealize.ShloMosaic.ValueIdx

namespace Cert.KernelIdeal.KInv

open Cert.KernelIdeal Cert.KernelIdeal.Gen Attn

variable (m : (ℓ : Loc nD τ sig) → Buf (Elt Ideal) ℓ) (c : Dev nD)
variable (s : Fin 32768 → ℝ) (e : Fin 1024 → Fin 32768 → ℝ)
  (hS : ∀ i, Attn.score (m ((c.tc : Thread nD τ).loc main_arg0)) (m ((c.tc : Thread nD τ).loc main_arg1)) (m ((c.tc : Thread nD τ).loc main_arg2)) (m ((c.tc : Thread nD τ).loc main_arg3)) i = (s i : EReal))
  (hE : ∀ i h, (m ((c.tc : Thread nD τ).loc main_arg1)) (ix3 i 0 h) = (e h i : EReal))

/-- Entry `(r, k)` of the encoder block at point `t` is entry `k` of memory row `2048 t + r`. -/
theorem point_entry (t : Fin cfg0.N) (ht : t.val < 16) (r : Fin 2048) (k : Fin 1024) :
    (iblk m c 0 t : Vec Ideal S2048x1024 .f32) (ix2 r k) = (m ((c.tc : Thread nD τ).loc main_arg1)) (ix3 (rowOf t.val ht r) 0 k) := by
  rw [KBlocks.blk0 m c t ht r k, KHost.P0 m c]
  rfl

include hS in
/-- The scores a point computes are the scores of its tile's rows. -/
theorem point_scores (t : Fin cfg0.N) (ht : t.val < 16) (r : Fin 2048) :
    k0_pay10 (iblk m c 0 t) (iblk m c 1 t) (iblk m c 2 t) (ix2 0 r) = (s (rowOf t.val ht r) : EReal) := by
  refine (KPayload.scores_apply (iblk m c 0 t) (iblk m c 1 t) (iblk m c 2 t) r).trans ?_
  have e1 : ∀ k : Fin 1024, (iblk m c 1 t : Vec Ideal S1x1024 .f32) (ix2 0 k) = (m ((c.tc : Thread nD τ).loc main_arg2)) (ix2 0 (wEnc k)) := fun k => by
    rw [KBlocks.blk1 m c t k, KHost.P2 m c]
    rfl
  have e2 : (iblk m c 2 t : Vec Ideal S1x1 .f32) (ix2 0 0) = decBias (m ((c.tc : Thread nD τ).loc main_arg0)) (m ((c.tc : Thread nD τ).loc main_arg2)) (m ((c.tc : Thread nD τ).loc main_arg3)) := by
    rw [KBlocks.blk2 m c t, KHost.P6 m c]
  refine (congrArg₂ (fun a b : EReal => a + b) (Finset.sum_congr rfl fun k _ => congrArg₂ (fun a b : EReal => a * b) (e1 k) (point_entry m c t ht r k)) e2).trans ?_
  exact (Cert.KernelIdeal.Finite.score_comm _ _ _ _ _).trans (hS _)

include hE in
theorem point_values (t : Fin cfg0.N) (ht : t.val < 16) (r : Fin 2048) (h : Fin 1024) :
    (iblk m c 0 t : Vec Ideal S2048x1024 .f32) (ix2 r h) = (e h (rowOf t.val ht r) : EReal) :=
  (point_entry m c t ht r h).trans (hE _ _)

/-- The carried buffers after point `n` hold the maximum, normaliser and weighted sums of the rows consumed. -/
def Inv (n : ℕ) (hn : n < cfg0.N) : Prop :=
  (outsAt0 m c n hn).2.2.2.2.1 (ix2 0 0) = mS s (pre n)
  ∧ (outsAt0 m c n hn).2.2.2.2.2.1 (ix2 0 0) = lS s (pre n)
  ∧ ∀ h : Fin 1024, (outsAt0 m c n hn).2.2.2.2.2.2 (ix2 0 h) = aS s (e h) (pre n)

include hS hE in
/-- A half's first point: from the reset values, that is from no rows. -/
theorem inv_first (t : Fin cfg0.N) (ht : t.val < 16) (h0 : t.val % 8 = 0) : Inv m c s e t.val t.isLt := by
  have h1 : ¬t.val % 8 = 7 := by omega
  have hsc := point_scores m c s hS t ht
  have hx0 := point_values m c e hE t ht
  have hm : (k0_pay6 (F := Ideal)) (ix2 0 0) = mS s ∅ := KPayload.reset_max.trans (mS_empty s).symm
  have hl : (k0_pay7 (F := Ideal)) (ix2 0 0) = lS s ∅ := KPayload.reset_norm.trans (lS_empty s).symm
  have ha : ∀ h, (k0_pay8 (F := Ideal)) (ix2 0 h) = aS s (e h) ∅ := fun h => (KPayload.reset_acc h).trans (aS_empty s (e h)).symm
  have hd : Disjoint (∅ : Finset (Fin 32768)) (Finset.univ.map (rowOf t.val ht)) := Finset.disjoint_empty_left _
  have hp : pre t.val = ∅ ∪ Finset.univ.map (rowOf t.val ht) := pre_first t.val ht h0
  unfold Inv
  refine ⟨?_, ?_, fun h => ?_⟩
  · exact (congrFun (KPoints.max_at_A m c t h0 h1) _).trans
      ((KStep.step_max_kept s ∅ (rowOf t.val ht) (iblk m c 0 t) (iblk m c 1 t) (iblk m c 2 t) (k0_pay6 (F := Ideal)) hsc hm).trans (congrArg (mS s) hp.symm))
  · exact (congrFun (KPoints.norm_at_A m c t h0 h1) _).trans
      ((KStep.step_norm s ∅ (rowOf t.val ht) (iblk m c 0 t) (iblk m c 1 t) (iblk m c 2 t) (k0_pay6 (F := Ideal)) (k0_pay7 (F := Ideal)) hsc hm hl hd).trans (congrArg (lS s) hp.symm))
  · exact (congrFun (KPoints.acc_at_A m c t h0 h1) _).trans
      ((KStep.step_acc s e ∅ (rowOf t.val ht) (iblk m c 0 t) (iblk m c 1 t) (iblk m c 2 t) (k0_pay6 (F := Ideal)) (k0_pay8 (F := Ideal)) hsc hx0 hm ha hd h).trans (congrArg (aS s (e h)) hp.symm))

include hS hE in
/-- A later point: from what the point before left. -/
theorem inv_next (n : ℕ) (hn : n + 1 < cfg0.N) (ht : n + 1 < 16) (h0 : ¬(n + 1) % 8 = 0)
    (ih : Inv m c s e n (Nat.lt_of_succ_lt hn)) : Inv m c s e (n + 1) hn := by
  let t : Fin cfg0.N := ⟨n + 1, hn⟩
  have hsc := point_scores m c s hS t ht
  have hx0 := point_values m c e hE t ht
  have hd : Disjoint (pre n) (Finset.univ.map (rowOf (n + 1) ht)) := pre_disjoint n ht
  have hp : pre (n + 1) = pre n ∪ Finset.univ.map (rowOf (n + 1) ht) := pre_succ n ht h0
  obtain ⟨hm, hl, ha⟩ := ih
  unfold Inv
  by_cases h1 : (n + 1) % 8 = 7
  · refine ⟨?_, ?_, fun h => ?_⟩
    · exact (congrFun (KPoints.max_at_C m c t h0 h1) _).trans
        ((KStep.step_max_kept s (pre n) (rowOf (n + 1) ht) (iblk m c 0 t) (iblk m c 1 t) (iblk m c 2 t) (outsAt0 m c (t.val - 1) (Nat.lt_of_le_of_lt (Nat.sub_le _ _) t.isLt)).2.2.2.2.1 hsc hm).trans (congrArg (mS s) hp.symm))
    · exact (congrFun (KPoints.norm_at_C m c t h0 h1) _).trans
        ((KStep.step_norm s (pre n) (rowOf (n + 1) ht) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 hsc hm hl hd).trans (congrArg (lS s) hp.symm))
    · exact (congrFun (KPoints.acc_at_C m c t h0 h1) _).trans
        ((KStep.step_acc s e (pre n) (rowOf (n + 1) ht) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 hsc hx0 hm ha hd h).trans (congrArg (aS s (e h)) hp.symm))
  · refine ⟨?_, ?_, fun h => ?_⟩
    · exact (congrFun (KPoints.max_at_B m c t h0 h1) _).trans
        ((KStep.step_max_kept s (pre n) (rowOf (n + 1) ht) (iblk m c 0 t) (iblk m c 1 t) (iblk m c 2 t) (outsAt0 m c (t.val - 1) (Nat.lt_of_le_of_lt (Nat.sub_le _ _) t.isLt)).2.2.2.2.1 hsc hm).trans (congrArg (mS s) hp.symm))
    · exact (congrFun (KPoints.norm_at_B m c t h0 h1) _).trans
        ((KStep.step_norm s (pre n) (rowOf (n + 1) ht) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 hsc hm hl hd).trans (congrArg (lS s) hp.symm))
    · exact (congrFun (KPoints.acc_at_B m c t h0 h1) _).trans
        ((KStep.step_acc s e (pre n) (rowOf (n + 1) ht) (iblk m c 0 t) (iblk m c 1 t) (iblk m c 2 t) (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.2 hsc hx0 hm ha hd h).trans (congrArg (aS s (e h)) hp.symm))

include hS hE in
theorem inv : ∀ (n : ℕ) (hn : n < cfg0.N), Inv m c s e n hn
  | 0, hn => inv_first m c s e hS hE ⟨0, hn⟩ (show (0 : ℕ) < 16 by omega) rfl
  | n + 1, hn => by
    have ht : n + 1 < 16 := lt_of_lt_of_eq hn (show cfg0.N = 16 from N_0)
    by_cases h0 : (n + 1) % 8 = 0
    · exact inv_first m c s e hS hE ⟨n + 1, hn⟩ ht h0
    · exact inv_next m c s e hS hE n hn ht h0 (inv n (Nat.lt_of_succ_lt hn))

include hS in
/-- Every point's output block holds the scores of its tile's rows. -/
theorem out_scores (t : Fin cfg0.N) (ht : t.val < 16) (r : Fin 2048) :
    (outsAt0 m c t.val t.isLt).1 (ix2 0 r) = (s (rowOf t.val ht r) : EReal) := by
  have hsc := point_scores m c s hS t ht r
  by_cases h0 : t.val % 8 = 0
  · have h1 : ¬t.val % 8 = 7 := by omega
    exact (congrFun (KPoints.scores_at_A m c t h0 h1) _).trans hsc
  · by_cases h1 : t.val % 8 = 7
    · exact (congrFun (KPoints.scores_at_C m c t h0 h1) _).trans hsc
    · exact (congrFun (KPoints.scores_at_B m c t h0 h1) _).trans hsc

theorem pre_last (t : ℕ) (h7 : t % 8 = 7) (hc : t / 8 < 2) : pre t = half ⟨t / 8, hc⟩ :=
  congrArg pre (show t = 8 * (t / 8) + 7 by omega)

include hS hE in
/-- A half's last point copies the half's maximum to the small output. -/
theorem out_max (t : Fin cfg0.N) (h7 : t.val % 8 = 7) (hc : t.val / 8 < 2) :
    (outsAt0 m c t.val t.isLt).2.1 (ix3 0 0 0) = mS s (half ⟨t.val / 8, hc⟩) := by
  have h0 : ¬t.val % 8 = 0 := by omega
  refine (congrFun (KPoints.maxOut_at_C m c t h0 h7) _).trans ?_
  refine (KPayload.out_max_apply _).trans ?_
  refine (congrFun (KPoints.max_at_C m c t h0 h7) _).symm.trans ?_
  exact ((inv m c s e hS hE t.val t.isLt).1).trans (congrArg (mS s) (pre_last t.val h7 hc))

include hS hE in
/-- … its normaliser … -/
theorem out_norm (t : Fin cfg0.N) (h7 : t.val % 8 = 7) (hc : t.val / 8 < 2) :
    (outsAt0 m c t.val t.isLt).2.2.1 (ix3 0 0 0) = lS s (half ⟨t.val / 8, hc⟩) := by
  have h0 : ¬t.val % 8 = 0 := by omega
  refine (congrFun (KPoints.normOut_at_C m c t h0 h7) _).trans ?_
  refine (KPayload.out_norm_apply _).trans ?_
  refine (congrFun (KPoints.norm_at_C m c t h0 h7) _).symm.trans ?_
  exact ((inv m c s e hS hE t.val t.isLt).2.1).trans (congrArg (lS s) (pre_last t.val h7 hc))

include hS hE in
/-- … and its weighted sums. -/
theorem out_acc (t : Fin cfg0.N) (h7 : t.val % 8 = 7) (hc : t.val / 8 < 2) (h : Fin 1024) :
    (outsAt0 m c t.val t.isLt).2.2.2.1 (ix3 0 0 h) = aS s (e h) (half ⟨t.val / 8, hc⟩) := by
  have h0 : ¬t.val % 8 = 0 := by omega
  refine (congrFun (KPoints.accOut_at_C m c t h0 h7) _).trans ?_
  refine (KPayload.out_acc_apply _ h).trans ?_
  refine (congrFun (KPoints.acc_at_C m c t h0 h7) _).symm.trans ?_
  exact ((inv m c s e hS hE t.val t.isLt).2.2 h).trans (congrArg (aS s (e h)) (pre_last t.val h7 hc))

end Cert.KernelIdeal.KInv
end
-- ==== Proof.KFinal.lean ====
/-
  From what each grid point writes back to the final arrays.

  The region's four result arrays are written block by block. The scores array (1 × 32768) receives, at every
  point t, the block of columns t·2048 … t·2048 + 2047. The three per-half arrays (2 × 1 × 1 and 2 × 1 × 1024)
  receive row t / 8 at the last point of each half (t ≡ 7 mod 8). Since these blocks tile the arrays, an array
  ends as the one function G whose block at every writing point is what that point writes.
-/
import proofs.«170956_j42322607735440_2_alg».proof.Proof.Gen.KernelIdeal.Frame
import proofs.«170956_j42322607735440_2_alg».proof.Proof.KRows
import Idealize.ShloMosaic.Lib.Pipeline.Value
import Idealize.ShloMosaic.Lib.ValueIdx

set_option maxRecDepth 16384

noncomputable section

namespace Cert.KernelIdeal.KFinal

open Cert.KernelIdeal Cert.KernelIdeal.Gen Idealize.ShloMosaic Idealize.ShloMosaic.TcCoe Idealize.SL.Sem
  Idealize.ShloMosaic.ValueIdx
open Idealize.ShloMosaic.Pipeline (Dat Cfg Window)

variable (m : (ℓ : Loc nD τ sig) → Buf (Elt Ideal) ℓ) (c : Dev nD)

/-! ## The scores array -/

/-- The block of the scores array written at point `t` is (0, t). -/
theorem idx3 : ∀ t : Fin cfg0.N, win0_3.index t (0 : Fin 2) = 0 ∧ win0_3.index t (1 : Fin 2) = t.val :=
  (by decide +kernel : ∀ t : Fin grid0.N, _)

/-- What point `t` writes back to the scores array is block `t` of `G`. -/
theorem flushed3_eq (G : S1x32768.Idx → EReal)
    (hG : ∀ (t : Fin cfg0.N) (ht : t.val < 16) (r : Fin 2048),
      (outsAt0 m c t.val t.isLt).1 (ix2 0 r) = G (ix2 0 (Attn.rowOf t.val ht r)))
    (t : Fin cfg0.N) :
    (dats m 0 c).flushed 3 t = ((cfg0.win 3).blk t).view.read (Elt Ideal) G := by
  show (cfg0.win 3).cut (grid0.coords t) ((dats m 0 c).after 3 t) = _
  rw [after0_3]
  funext j
  have ht : t.val < 16 := lt_of_lt_of_eq t.isLt (show cfg0.N = 16 from N_0)
  obtain ⟨i0, i1⟩ := idx3 t
  have hj0 : (j 0).val < 1 := Nat.lt_of_lt_of_le (j 0).isLt ((cfg0.win 3).xsize_le (grid0.coords t) 0)
  have hj1 : (j 1).val < 2048 := Nat.lt_of_lt_of_le (j 1).isLt ((cfg0.win 3).xsize_le (grid0.coords t) 1)
  show (outsAt0 m c t.val t.isLt).1 ((cfg0.win 3).xinj (grid0.coords t) j) = G (((cfg0.win 3).blk t).view.emb j)
  have e1 : ((cfg0.win 3).xinj (grid0.coords t) j : S1x2048.Idx) = ix2 0 ⟨(j 1).val, hj1⟩ := by
    funext a; apply Fin.ext
    match a with
    | ⟨0, _⟩ => show (j 0).val = 0; omega
    | ⟨1, _⟩ => rfl
  have e2 : (((cfg0.win 3).blk t).view.emb j : S1x32768.Idx) = ix2 0 (Attn.rowOf t.val ht ⟨(j 1).val, hj1⟩) := by
    funext a; apply Fin.ext
    match a with
    | ⟨0, _⟩ => show win0_3.index t (0 : Fin 2) * 1 + 1 * (j 0).val = 0; omega
    | ⟨1, _⟩ => show win0_3.index t (1 : Fin 2) * 2048 + 1 * (j 1).val = t.val * 2048 + (j 1).val; omega
  rw [e1, e2]
  exact hG t ht _

/-- An index of the scores array is in point `t`'s block iff each coordinate is in the block's range. -/
theorem mem_blk3 (t : Fin cfg0.N) (i : S1x32768.Idx) :
    i ∈ ((cfg0.win 3).blk t).view.set ↔ ∀ a : Fin 2, win0_3.index t a * S1x2048.size a ≤ (i a).val
      ∧ (i a).val < win0_3.index t a * S1x2048.size a + S1x2048.size a := by
  show i ∈ ((View.whole main_v7_0).slice (win0_3.rect t)).set ↔ _
  rw [View.set_slice_whole, Rect.mem_set_unit]
  exact Iff.rfl

/-- The scores array after the region: the sixteen blocks of 2048 columns tile it. -/
theorem final3 (G : S1x32768.Idx → EReal)
    (hG : ∀ (t : Fin cfg0.N) (ht : t.val < 16) (r : Fin 2048),
      (outsAt0 m c t.val t.isLt).1 (ix2 0 r) = G (ix2 0 (Attn.rowOf t.val ht r))) :
    (dats m 0 c).arrAt 3 cfg0.N = G :=
  (dats m 0 c).arrAt_eq_of_cover 3 G (fun t _ => flushed3_eq m c G hG t) fun i => by
    have hi0 : (i 0).val < 1 := (i 0).isLt
    have hi1 : (i 1).val < 32768 := (i 1).isLt
    have hN : cfg0.N = 16 := N_0
    refine ⟨⟨(i 1).val / 2048, by omega⟩, flush0_3 _, ?_⟩
    rw [mem_blk3]
    obtain ⟨e0, e1⟩ := idx3 ⟨(i 1).val / 2048, by omega⟩
    intro a
    match a with
    | ⟨0, _⟩ =>
      show win0_3.index ⟨(i 1).val / 2048, _⟩ (0 : Fin 2) * 1 ≤ (i 0).val
        ∧ (i 0).val < win0_3.index ⟨(i 1).val / 2048, _⟩ (0 : Fin 2) * 1 + 1
      omega
    | ⟨1, _⟩ =>
      show win0_3.index ⟨(i 1).val / 2048, _⟩ (1 : Fin 2) * 2048 ≤ (i 1).val
        ∧ (i 1).val < win0_3.index ⟨(i 1).val / 2048, _⟩ (1 : Fin 2) * 2048 + 2048
      simp only at e1
      omega

/-! ## The two per-half scalars -/

/-- The block of the maxima array written at point `t` is (t / 8, 0, 0). -/
theorem idx4 : ∀ t : Fin cfg0.N, win0_4.index t (0 : Fin 3) = t.val / 8 ∧ win0_4.index t (1 : Fin 3) = 0
    ∧ win0_4.index t (2 : Fin 3) = 0 :=
  (by decide +kernel : ∀ t : Fin grid0.N, _)

/-- What the last point of a half writes back to the maxima array is that half's row of `G`. -/
theorem flushed4_eq (G : S2x1x1.Idx → EReal)
    (hG : ∀ (t : Fin cfg0.N) (h7 : t.val % 8 = 7) (hc : t.val / 8 < 2),
      (outsAt0 m c t.val t.isLt).2.1 (ix3 0 0 0) = G (ix3 ⟨t.val / 8, hc⟩ 0 0))
    (t : Fin cfg0.N) (hf : (cfg0.win 4).flush t = true) :
    (dats m 0 c).flushed 4 t = ((cfg0.win 4).blk t).view.read (Elt Ideal) G := by
  show (cfg0.win 4).cut (grid0.coords t) ((dats m 0 c).after 4 t) = _
  rw [after0_4]
  funext j
  have ht : t.val < 16 := lt_of_lt_of_eq t.isLt (show cfg0.N = 16 from N_0)
  have h7 : t.val % 8 = 7 := (flush0_4 t).mp hf
  have hc : t.val / 8 < 2 := by omega
  obtain ⟨i0, i1, i2⟩ := idx4 t
  have hj0 : (j 0).val < 1 := Nat.lt_of_lt_of_le (j 0).isLt ((cfg0.win 4).xsize_le (grid0.coords t) 0)
  have hj1 : (j 1).val < 1 := Nat.lt_of_lt_of_le (j 1).isLt ((cfg0.win 4).xsize_le (grid0.coords t) 1)
  have hj2 : (j 2).val < 1 := Nat.lt_of_lt_of_le (j 2).isLt ((cfg0.win 4).xsize_le (grid0.coords t) 2)
  show (outsAt0 m c t.val t.isLt).2.1 ((cfg0.win 4).xinj (grid0.coords t) j) = G (((cfg0.win 4).blk t).view.emb j)
  have e1 : ((cfg0.win 4).xinj (grid0.coords t) j : S1x1x1.Idx) = ix3 0 0 0 := by
    funext a; apply Fin.ext
    match a with
    | ⟨0, _⟩ => show (j 0).val = 0; omega
    | ⟨1, _⟩ => show (j 1).val = 0; omega
    | ⟨2, _⟩ => show (j 2).val = 0; omega
  have e2 : (((cfg0.win 4).blk t).view.emb j : S2x1x1.Idx) = ix3 ⟨t.val / 8, hc⟩ 0 0 := by
    funext a; apply Fin.ext
    match a with
    | ⟨0, _⟩ => show win0_4.index t (0 : Fin 3) * 1 + 1 * (j 0).val = t.val / 8; omega
    | ⟨1, _⟩ => show win0_4.index t (1 : Fin 3) * 1 + 1 * (j 1).val = 0; omega
    | ⟨2, _⟩ => show win0_4.index t (2 : Fin 3) * 1 + 1 * (j 2).val = 0; omega
  rw [e1, e2]
  exact hG t h7 hc

/-- An index of the maxima array is in point `t`'s block iff each coordinate is in the block's range. -/
theorem mem_blk4 (t : Fin cfg0.N) (i : S2x1x1.Idx) :
    i ∈ ((cfg0.win 4).blk t).view.set ↔ ∀ a : Fin 3, win0_4.index t a * S1x1x1.size a ≤ (i a).val
      ∧ (i a).val < win0_4.index t a * S1x1x1.size a + S1x1x1.size a := by
  show i ∈ ((View.whole main_v7_1).slice (win0_4.rect t)).set ↔ _
  rw [View.set_slice_whole, Rect.mem_set_unit]
  exact Iff.rfl

/-- The maxima array after the region: each half's last point writes its row. -/
theorem final4 (G : S2x1x1.Idx → EReal)
    (hG : ∀ (t : Fin cfg0.N) (h7 : t.val % 8 = 7) (hc : t.val / 8 < 2),
      (outsAt0 m c t.val t.isLt).2.1 (ix3 0 0 0) = G (ix3 ⟨t.val / 8, hc⟩ 0 0)) :
    (dats m 0 c).arrAt 4 cfg0.N = G :=
  (dats m 0 c).arrAt_eq_of_cover 4 G (fun t hf => flushed4_eq m c G hG t hf) fun i => by
    have hi0 : (i 0).val < 2 := (i 0).isLt
    have hi1 : (i 1).val < 1 := (i 1).isLt
    have hi2 : (i 2).val < 1 := (i 2).isLt
    have hN : cfg0.N = 16 := N_0
    refine ⟨⟨8 * (i 0).val + 7, by omega⟩, (flush0_4 _).mpr (by show (8 * (i 0).val + 7) % 8 = 7; omega), ?_⟩
    rw [mem_blk4]
    obtain ⟨e0, e1, e2⟩ := idx4 ⟨8 * (i 0).val + 7, by omega⟩
    simp only at e0
    intro a
    match a with
    | ⟨0, _⟩ =>
      show win0_4.index ⟨8 * (i 0).val + 7, _⟩ (0 : Fin 3) * 1 ≤ (i 0).val
        ∧ (i 0).val < win0_4.index ⟨8 * (i 0).val + 7, _⟩ (0 : Fin 3) * 1 + 1
      omega
    | ⟨1, _⟩ =>
      show win0_4.index ⟨8 * (i 0).val + 7, _⟩ (1 : Fin 3) * 1 ≤ (i 1).val
        ∧ (i 1).val < win0_4.index ⟨8 * (i 0).val + 7, _⟩ (1 : Fin 3) * 1 + 1
      omega
    | ⟨2, _⟩ =>
      show win0_4.index ⟨8 * (i 0).val + 7, _⟩ (2 : Fin 3) * 1 ≤ (i 2).val
        ∧ (i 2).val < win0_4.index ⟨8 * (i 0).val + 7, _⟩ (2 : Fin 3) * 1 + 1
      omega

/-- The block of the normalisers array written at point `t` is (t / 8, 0, 0). -/
theorem idx5 : ∀ t : Fin cfg0.N, win0_5.index t (0 : Fin 3) = t.val / 8 ∧ win0_5.index t (1 : Fin 3) = 0
    ∧ win0_5.index t (2 : Fin 3) = 0 :=
  (by decide +kernel : ∀ t : Fin grid0.N, _)

/-- What the last point of a half writes back to the normalisers array is that half's row of `G`. -/
theorem flushed5_eq (G : S2x1x1.Idx → EReal)
    (hG : ∀ (t : Fin cfg0.N) (h7 : t.val % 8 = 7) (hc : t.val / 8 < 2),
      (outsAt0 m c t.val t.isLt).2.2.1 (ix3 0 0 0) = G (ix3 ⟨t.val / 8, hc⟩ 0 0))
    (t : Fin cfg0.N) (hf : (cfg0.win 5).flush t = true) :
    (dats m 0 c).flushed 5 t = ((cfg0.win 5).blk t).view.read (Elt Ideal) G := by
  show (cfg0.win 5).cut (grid0.coords t) ((dats m 0 c).after 5 t) = _
  rw [after0_5]
  funext j
  have ht : t.val < 16 := lt_of_lt_of_eq t.isLt (show cfg0.N = 16 from N_0)
  have h7 : t.val % 8 = 7 := (flush0_5 t).mp hf
  have hc : t.val / 8 < 2 := by omega
  obtain ⟨i0, i1, i2⟩ := idx5 t
  have hj0 : (j 0).val < 1 := Nat.lt_of_lt_of_le (j 0).isLt ((cfg0.win 5).xsize_le (grid0.coords t) 0)
  have hj1 : (j 1).val < 1 := Nat.lt_of_lt_of_le (j 1).isLt ((cfg0.win 5).xsize_le (grid0.coords t) 1)
  have hj2 : (j 2).val < 1 := Nat.lt_of_lt_of_le (j 2).isLt ((cfg0.win 5).xsize_le (grid0.coords t) 2)
  show (outsAt0 m c t.val t.isLt).2.2.1 ((cfg0.win 5).xinj (grid0.coords t) j) = G (((cfg0.win 5).blk t).view.emb j)
  have e1 : ((cfg0.win 5).xinj (grid0.coords t) j : S1x1x1.Idx) = ix3 0 0 0 := by
    funext a; apply Fin.ext
    match a with
    | ⟨0, _⟩ => show (j 0).val = 0; omega
    | ⟨1, _⟩ => show (j 1).val = 0; omega
    | ⟨2, _⟩ => show (j 2).val = 0; omega
  have e2 : (((cfg0.win 5).blk t).view.emb j : S2x1x1.Idx) = ix3 ⟨t.val / 8, hc⟩ 0 0 := by
    funext a; apply Fin.ext
    match a with
    | ⟨0, _⟩ => show win0_5.index t (0 : Fin 3) * 1 + 1 * (j 0).val = t.val / 8; omega
    | ⟨1, _⟩ => show win0_5.index t (1 : Fin 3) * 1 + 1 * (j 1).val = 0; omega
    | ⟨2, _⟩ => show win0_5.index t (2 : Fin 3) * 1 + 1 * (j 2).val = 0; omega
  rw [e1, e2]
  exact hG t h7 hc

/-- An index of the normalisers array is in point `t`'s block iff each coordinate is in the block's range. -/
theorem mem_blk5 (t : Fin cfg0.N) (i : S2x1x1.Idx) :
    i ∈ ((cfg0.win 5).blk t).view.set ↔ ∀ a : Fin 3, win0_5.index t a * S1x1x1.size a ≤ (i a).val
      ∧ (i a).val < win0_5.index t a * S1x1x1.size a + S1x1x1.size a := by
  show i ∈ ((View.whole main_v7_2).slice (win0_5.rect t)).set ↔ _
  rw [View.set_slice_whole, Rect.mem_set_unit]
  exact Iff.rfl

/-- The normalisers array after the region: each half's last point writes its row. -/
theorem final5 (G : S2x1x1.Idx → EReal)
    (hG : ∀ (t : Fin cfg0.N) (h7 : t.val % 8 = 7) (hc : t.val / 8 < 2),
      (outsAt0 m c t.val t.isLt).2.2.1 (ix3 0 0 0) = G (ix3 ⟨t.val / 8, hc⟩ 0 0)) :
    (dats m 0 c).arrAt 5 cfg0.N = G :=
  (dats m 0 c).arrAt_eq_of_cover 5 G (fun t hf => flushed5_eq m c G hG t hf) fun i => by
    have hi0 : (i 0).val < 2 := (i 0).isLt
    have hi1 : (i 1).val < 1 := (i 1).isLt
    have hi2 : (i 2).val < 1 := (i 2).isLt
    have hN : cfg0.N = 16 := N_0
    refine ⟨⟨8 * (i 0).val + 7, by omega⟩, (flush0_5 _).mpr (by show (8 * (i 0).val + 7) % 8 = 7; omega), ?_⟩
    rw [mem_blk5]
    obtain ⟨e0, e1, e2⟩ := idx5 ⟨8 * (i 0).val + 7, by omega⟩
    simp only at e0
    intro a
    match a with
    | ⟨0, _⟩ =>
      show win0_5.index ⟨8 * (i 0).val + 7, _⟩ (0 : Fin 3) * 1 ≤ (i 0).val
        ∧ (i 0).val < win0_5.index ⟨8 * (i 0).val + 7, _⟩ (0 : Fin 3) * 1 + 1
      omega
    | ⟨1, _⟩ =>
      show win0_5.index ⟨8 * (i 0).val + 7, _⟩ (1 : Fin 3) * 1 ≤ (i 1).val
        ∧ (i 1).val < win0_5.index ⟨8 * (i 0).val + 7, _⟩ (1 : Fin 3) * 1 + 1
      omega
    | ⟨2, _⟩ =>
      show win0_5.index ⟨8 * (i 0).val + 7, _⟩ (2 : Fin 3) * 1 ≤ (i 2).val
        ∧ (i 2).val < win0_5.index ⟨8 * (i 0).val + 7, _⟩ (2 : Fin 3) * 1 + 1
      omega

/-! ## The per-half weighted sums -/

/-- The block of the weighted-sums array written at point `t` is (t / 8, 0, 0). -/
theorem idx6 : ∀ t : Fin cfg0.N, win0_6.index t (0 : Fin 3) = t.val / 8 ∧ win0_6.index t (1 : Fin 3) = 0
    ∧ win0_6.index t (2 : Fin 3) = 0 :=
  (by decide +kernel : ∀ t : Fin grid0.N, _)

/-- What the last point of a half writes back to the weighted-sums array is that half's row of `G`. -/
theorem flushed6_eq (G : S2x1x1024.Idx → EReal)
    (hG : ∀ (t : Fin cfg0.N) (h7 : t.val % 8 = 7) (hc : t.val / 8 < 2) (h : Fin 1024),
      (outsAt0 m c t.val t.isLt).2.2.2.1 (ix3 0 0 h) = G (ix3 ⟨t.val / 8, hc⟩ 0 h))
    (t : Fin cfg0.N) (hf : (cfg0.win 6).flush t = true) :
    (dats m 0 c).flushed 6 t = ((cfg0.win 6).blk t).view.read (Elt Ideal) G := by
  show (cfg0.win 6).cut (grid0.coords t) ((dats m 0 c).after 6 t) = _
  rw [after0_6]
  funext j
  have ht : t.val < 16 := lt_of_lt_of_eq t.isLt (show cfg0.N = 16 from N_0)
  have h7 : t.val % 8 = 7 := (flush0_6 t).mp hf
  have hc : t.val / 8 < 2 := by omega
  obtain ⟨i0, i1, i2⟩ := idx6 t
  have hj0 : (j 0).val < 1 := Nat.lt_of_lt_of_le (j 0).isLt ((cfg0.win 6).xsize_le (grid0.coords t) 0)
  have hj1 : (j 1).val < 1 := Nat.lt_of_lt_of_le (j 1).isLt ((cfg0.win 6).xsize_le (grid0.coords t) 1)
  have hj2 : (j 2).val < 1024 := Nat.lt_of_lt_of_le (j 2).isLt ((cfg0.win 6).xsize_le (grid0.coords t) 2)
  show (outsAt0 m c t.val t.isLt).2.2.2.1 ((cfg0.win 6).xinj (grid0.coords t) j) = G (((cfg0.win 6).blk t).view.emb j)
  have e1 : ((cfg0.win 6).xinj (grid0.coords t) j : S1x1x1024.Idx) = ix3 0 0 ⟨(j 2).val, hj2⟩ := by
    funext a; apply Fin.ext
    match a with
    | ⟨0, _⟩ => show (j 0).val = 0; omega
    | ⟨1, _⟩ => show (j 1).val = 0; omega
    | ⟨2, _⟩ => rfl
  have e2 : (((cfg0.win 6).blk t).view.emb j : S2x1x1024.Idx) = ix3 ⟨t.val / 8, hc⟩ 0 ⟨(j 2).val, hj2⟩ := by
    funext a; apply Fin.ext
    match a with
    | ⟨0, _⟩ => show win0_6.index t (0 : Fin 3) * 1 + 1 * (j 0).val = t.val / 8; omega
    | ⟨1, _⟩ => show win0_6.index t (1 : Fin 3) * 1 + 1 * (j 1).val = 0; omega
    | ⟨2, _⟩ => show win0_6.index t (2 : Fin 3) * 1024 + 1 * (j 2).val = (j 2).val; omega
  rw [e1, e2]
  exact hG t h7 hc _

/-- An index of the weighted-sums array is in point `t`'s block iff each coordinate is in the block's range. -/
theorem mem_blk6 (t : Fin cfg0.N) (i : S2x1x1024.Idx) :
    i ∈ ((cfg0.win 6).blk t).view.set ↔ ∀ a : Fin 3, win0_6.index t a * S1x1x1024.size a ≤ (i a).val
      ∧ (i a).val < win0_6.index t a * S1x1x1024.size a + S1x1x1024.size a := by
  show i ∈ ((View.whole main_v7_3).slice (win0_6.rect t)).set ↔ _
  rw [View.set_slice_whole, Rect.mem_set_unit]
  exact Iff.rfl

/-- The weighted-sums array after the region: each half's last point writes its row. -/
theorem final6 (G : S2x1x1024.Idx → EReal)
    (hG : ∀ (t : Fin cfg0.N) (h7 : t.val % 8 = 7) (hc : t.val / 8 < 2) (h : Fin 1024),
      (outsAt0 m c t.val t.isLt).2.2.2.1 (ix3 0 0 h) = G (ix3 ⟨t.val / 8, hc⟩ 0 h)) :
    (dats m 0 c).arrAt 6 cfg0.N = G :=
  (dats m 0 c).arrAt_eq_of_cover 6 G (fun t hf => flushed6_eq m c G hG t hf) fun i => by
    have hi0 : (i 0).val < 2 := (i 0).isLt
    have hi1 : (i 1).val < 1 := (i 1).isLt
    have hi2 : (i 2).val < 1024 := (i 2).isLt
    have hN : cfg0.N = 16 := N_0
    refine ⟨⟨8 * (i 0).val + 7, by omega⟩, (flush0_6 _).mpr (by show (8 * (i 0).val + 7) % 8 = 7; omega), ?_⟩
    rw [mem_blk6]
    obtain ⟨e0, e1, e2⟩ := idx6 ⟨8 * (i 0).val + 7, by omega⟩
    simp only at e0
    intro a
    match a with
    | ⟨0, _⟩ =>
      show win0_6.index ⟨8 * (i 0).val + 7, _⟩ (0 : Fin 3) * 1 ≤ (i 0).val
        ∧ (i 0).val < win0_6.index ⟨8 * (i 0).val + 7, _⟩ (0 : Fin 3) * 1 + 1
      omega
    | ⟨1, _⟩ =>
      show win0_6.index ⟨8 * (i 0).val + 7, _⟩ (1 : Fin 3) * 1 ≤ (i 1).val
        ∧ (i 1).val < win0_6.index ⟨8 * (i 0).val + 7, _⟩ (1 : Fin 3) * 1 + 1
      omega
    | ⟨2, _⟩ =>
      show win0_6.index ⟨8 * (i 0).val + 7, _⟩ (2 : Fin 3) * 1024 ≤ (i 2).val
        ∧ (i 2).val < win0_6.index ⟨8 * (i 0).val + 7, _⟩ (2 : Fin 3) * 1024 + 1024
      omega

end Cert.KernelIdeal.KFinal

end
-- ==== Proof.KMerge.lean ====
/-
  The two halves, merged, are the direct softmax.

  Each half of the rows leaves its maximum, its normaliser and its weighted sums, the exponentials taken against
  the half's own maximum. Rescaling each half by exp (its maximum − the common maximum) and adding gives the
  normaliser and the weighted sums of all the rows against the common maximum, which is the maximum of all the
  scores; the quotient by the normaliser then distributes over the sum of the rows.
-/
import proofs.«170956_j42322607735440_2_alg».proof.Proof.Spec
import proofs.«170956_j42322607735440_2_alg».proof.Proof.OnlineSoftmax
import proofs.«170956_j42322607735440_2_alg».proof.Proof.KRows

noncomputable section

namespace Attn

open Idealize.ShloMosaic Idealize.ShloMosaic.ValueIdx

/-- The common maximum of the two halves is the maximum of all the scores. -/
theorem mrgMax_eq (s : Fin 32768 → ℝ) (A4 : SM.Idx → EReal) (h4 : ∀ c : Fin 2, A4 (ix3 c 0 0) = mS s (half c)) :
    mrgMax A4 = mS s Finset.univ := by
  unfold mrgMax
  rw [h4 0, h4 1, ← mS_union, half_union]

/-- The merged normaliser is the normaliser of all the rows. -/
theorem mrgL_eq (s : Fin 32768 → ℝ) (A4 A5 : SM.Idx → EReal) (h4 : ∀ c : Fin 2, A4 (ix3 c 0 0) = mS s (half c))
    (h5 : ∀ c : Fin 2, A5 (ix3 c 0 0) = lS s (half c)) :
    mrgL A4 A5 = lS s Finset.univ := by
  unfold mrgL mrgC mrgMax
  rw [h4 0, h4 1, h5 0, h5 1, ← lS_merge s _ _ half_disjoint (half_nonempty 0) (half_nonempty 1), half_union]

/-- The weight computed from the stored score and the merged maximum and normaliser is the softmax weight. -/
theorem merge_weight (sc : Fin 32768 → EReal) (s : Fin 32768 → ℝ) (hs : ∀ i, sc i = (s i : EReal))
    (A3 : SS.Idx → EReal) (A4 A5 : SM.Idx → EReal)
    (h3 : ∀ t, A3 (ix2 0 t) = sc t) (h4 : ∀ c : Fin 2, A4 (ix3 c 0 0) = mS s (half c))
    (h5 : ∀ c : Fin 2, A5 (ix3 c 0 0) = lS s (half c))
    (t : Fin 32768) : tailWeight A3 A4 A5 t = refWeight sc t := by
  obtain rfl : sc = fun i => (s i : EReal) := funext hs
  unfold tailWeight refWeight
  rw [mrgMax_eq s A4 h4, mrgL_eq s A4 A5 h4 h5, h3 t]
  rfl

/-- The output computed from the two halves' weighted sums is the softmax-weighted sum of the rows. -/
theorem merge_out (sc : Fin 32768 → EReal) (s : Fin 32768 → ℝ) (hs : ∀ i, sc i = (s i : EReal))
    (E : SE.Idx → EReal) (e : Fin 1024 → Fin 32768 → ℝ) (he : ∀ i h, E (ix3 i 0 h) = (e h i : EReal))
    (A4 A5 : SM.Idx → EReal) (A6 : SA.Idx → EReal)
    (h4 : ∀ c : Fin 2, A4 (ix3 c 0 0) = mS s (half c)) (h5 : ∀ c : Fin 2, A5 (ix3 c 0 0) = lS s (half c))
    (h6 : ∀ (c : Fin 2) (h : Fin 1024), A6 (ix3 c 0 h) = aS s (e h) (half c))
    (h : Fin 1024) : tailOut A4 A5 A6 h = refOut sc E h := by
  obtain rfl : sc = fun i => (s i : EReal) := funext hs
  have hnum : A6 (ix3 0 0 h) * mrgC A4 0 + A6 (ix3 1 0 h) * mrgC A4 1 = aS s (e h) Finset.univ := by
    unfold mrgC mrgMax
    rw [h4 0, h4 1, h6 0 h, h6 1 h, ← aS_merge s (e h) _ _ half_disjoint (half_nonempty 0) (half_nonempty 1), half_union]
  unfold tailOut refOut
  rw [hnum, mrgL_eq s A4 A5 h4 h5, div_sum s (e h) Finset.univ Finset.univ_nonempty]
  refine Finset.sum_congr rfl fun i _ => ?_
  rw [he i h]
  rfl

end Attn

end
-- ==== Proof.KValues.lean ====
/-
  The values the kernel ends with are the reference's.

  Under the precondition all inputs are real, so the scores and the memory entries are real numbers. The region
  then leaves: in its first output the score of every row; in its three small outputs, for each half of the
  rows, the half's maximum, its normaliser and its weighted sums, each taken against the half's own maximum.
  Merging the halves by rescaling to the common maximum gives the normaliser and weighted sums of all rows, and
  dividing gives the softmax weights and the weighted sum of the rows: the reference's two results.
-/
import proofs.«170956_j42322607735440_2_alg».proof.Defs
import proofs.«170956_j42322607735440_2_alg».proof.Proof.KHost
import proofs.«170956_j42322607735440_2_alg».proof.Proof.KInv
import proofs.«170956_j42322607735440_2_alg».proof.Proof.KFinal
import proofs.«170956_j42322607735440_2_alg».proof.Proof.KMerge
import proofs.«170956_j42322607735440_2_alg».proof.Proof.Finite
import proofs.«170956_j42322607735440_2_alg».proof.Proof.Gen.Pre_finite_inputs

noncomputable section

open Idealize.ShloMosaic Idealize.ShloMosaic.TcCoe Idealize.SL.Sem Idealize.ShloMosaic.ValueIdx

namespace Cert.KernelIdeal.KValues

open Cert.KernelIdeal Cert.KernelIdeal.Gen Attn

/-- Under the precondition the merged halves are the direct softmax: both results of the kernel's run are the
    reference's functions of the arguments. -/
theorem kernel_values (m : (ℓ : Loc nD τ sig) → Buf (Elt Ideal) ℓ) (hpre : Cert.Pre_KernelIdeal m) (c : Dev nD) :
    ((fun i => Attn.tailOut (KHost.A4 m c) (KHost.A5 m c) (KHost.A6 m c) (i 1)) : S1x1024.Idx → EReal)
        = (fun i => Attn.refOut (Attn.score (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) (i 1))
    ∧ ((fun i => Attn.tailWeight (KHost.A3 m c) (KHost.A4 m c) (KHost.A5 m c) (i 1)) : S1x32768.Idx → EReal)
        = (fun i => Attn.refWeight (Attn.score (m ((c.tc : Thread nD τ).loc main_arg0)) (m ((c.tc : Thread nD τ).loc main_arg1)) (m ((c.tc : Thread nD τ).loc main_arg2)) (m ((c.tc : Thread nD τ).loc main_arg3))) (i 1)) := by
  obtain ⟨hd, hEf, hW, hb⟩ := Cert.KernelIdeal.Finite.finite_of_pre m hpre c
  choose s hS using fun t => Cert.KernelIdeal.Finite.score_real _ _ _ _ hd hEf hW hb t
  let e : Fin 1024 → Fin 32768 → ℝ := fun h i => ((m ((c.tc : Thread nD τ).loc main_arg1)) (ix3 i 0 h)).toReal
  have hE : ∀ i h, (m ((c.tc : Thread nD τ).loc main_arg1)) (ix3 i 0 h) = (e h i : EReal) := fun i h =>
    (EReal.coe_toReal (hEf _).1 (hEf _).2).symm
  have f3 : KHost.A3 m c = fun i => ((s (i 1) : ℝ) : EReal) :=
    KFinal.final3 m c _ fun t ht r => KInv.out_scores m c s hS t ht r
  have f4 : KHost.A4 m c = fun i => mS s (half (i 0)) :=
    KFinal.final4 m c _ fun t h7 hc => KInv.out_max m c s e hS hE t h7 hc
  have f5 : KHost.A5 m c = fun i => lS s (half (i 0)) :=
    KFinal.final5 m c _ fun t h7 hc => KInv.out_norm m c s e hS hE t h7 hc
  have f6 : KHost.A6 m c = fun i => aS s (e (i 2)) (half (i 0)) :=
    KFinal.final6 m c _ fun t h7 hc h => KInv.out_acc m c s e hS hE t h7 hc h
  have h3 : ∀ t, KHost.A3 m c (ix2 0 t) = Attn.score (m ((c.tc : Thread nD τ).loc main_arg0)) (m ((c.tc : Thread nD τ).loc main_arg1)) (m ((c.tc : Thread nD τ).loc main_arg2)) (m ((c.tc : Thread nD τ).loc main_arg3)) t := fun t => by rw [f3]; exact (hS t).symm
  have h4 : ∀ c' : Fin 2, KHost.A4 m c (ix3 c' 0 0) = mS s (half c') := fun c' => by rw [f4]
  have h5 : ∀ c' : Fin 2, KHost.A5 m c (ix3 c' 0 0) = lS s (half c') := fun c' => by rw [f5]
  have h6 : ∀ (c' : Fin 2) (h : Fin 1024), KHost.A6 m c (ix3 c' 0 h) = aS s (e h) (half c') := fun c' h => by rw [f6]
  constructor
  · funext i
    exact merge_out _ s hS _ e hE _ _ _ h4 h5 h6 (i 1)
  · funext i
    exact merge_weight _ s hS _ _ _ h3 h4 h5 (i 1)

end Cert.KernelIdeal.KValues
end
-- ==== Proof.RefSide.lean ====
/-
  The reference computation, read as plain mathematics.

  The reference scores every memory row by  ⟨E t, W₂⟩ + (⟨d, W₁⟩ + b),  takes the softmax of the 32768 scores
  (maximum from −∞, subtraction, exponential, sum from 0, quotient) and returns the weights and the weighted sum
  of the rows. Here each stage of that computation is read at an index and identified with the direct reading
  of the shared specification: the score, the maximum as a supremum over all rows, the exponential of the
  shifted score, the normaliser, the weight and the output column. Only re-indexing and the laws
  max ⊥ x = x and 0 + x = x are used; nothing is assumed about the inputs.
-/
import proofs.«170956_j42322607735440_2_alg».proof.Proof.Gen.ReferenceIdeal.Read
import proofs.«170956_j42322607735440_2_alg».proof.Proof.Spec

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

abbrev A0 := (⟨S1x1024, .f32⟩ : BufTy).Contents (Elt Ideal)
abbrev A1 := (⟨S32768x1x1024, .f32⟩ : BufTy).Contents (Elt Ideal)
abbrev A2 := (⟨S1x2048, .f32⟩ : BufTy).Contents (Elt Ideal)
abbrev A3 := (⟨S1, .f32⟩ : BufTy).Contents (Elt Ideal)

variable (x0 : A0) (x1 : A1) (x2 : A2) (x3 : A3)

/-! ## Indices with a coordinate of extent one -/

/-- A rank-2 index whose first axis has extent one is (0, its second coordinate). -/
theorem eq_ix2_zero {n : Nat} (j : (⟨2, ![1, n]⟩ : Shape).Idx) : j = ix2 0 (j 1) := by
  funext a
  match a with
  | ⟨0, _⟩ => exact Fin.ext (by have h : (j 0).val < 1 := (j 0).isLt; show (j 0).val = 0; omega)
  | ⟨1, _⟩ => rfl

/-! ## The scores -/

/-- The decoder's contribution, as the reference computes it, is the specification's. -/
theorem dec8 (j : S1x1.Idx) : val_main_v8 (F := Ideal) x0 x2 x3 j = Attn.decBias x0 x2 x3 := by
  rw [val_main_v8_apply, val_main_v6_apply, val_main_v7_apply]
  simp only [val_main_v5_apply, val_main_v1_apply, Ideal.addf_def]
  unfold Attn.decBias
  have h0 : (j 0).val < 1 := (j 0).isLt
  have e3 : idx_main_v7 j = ix1 0 := funext fun a => by match a with | ⟨0, _⟩ => rfl
  have el : ∀ k : Fin 1024, lidx_main_v6 j k = ix2 0 k := fun k => funext fun a => by
    match a with
    | ⟨0, _⟩ => exact Fin.ext (by show (j 0).val = 0; omega)
    | ⟨1, _⟩ => rfl
  have er : ∀ k : Fin 1024, idx_main_v1 (idx_main_v5 (ridx_main_v6 j k)) = ix2 0 (Attn.wDec k) := fun k => funext fun a => by
    match a with
    | ⟨0, _⟩ => exact Fin.ext (by have h1 : (j 1).val < 1 := (j 1).isLt; show (j 1).val = 0; omega)
    | ⟨1, _⟩ => rfl
  rw [e3]
  exact congrArg (· + x3 (ix1 0)) (Finset.sum_congr rfl fun k _ => by rw [el k, er k])

/-- The reference's score of row `t` is the specification's. -/
theorem score11 (t : Fin 32768) : val_main_v11 (F := Ideal) x0 x1 x2 x3 (ix2 0 t) = Attn.score x0 x1 x2 x3 t := by
  rw [val_main_v11_apply, val_main_v10_apply, val_main_v4_apply, val_main_v9_apply, dec8]
  simp only [val_main_v0_apply, val_main_v3_apply, val_main_v2_apply, Ideal.addf_def]
  unfold Attn.score
  have el : ∀ k : Fin 1024, idx_main_v0 (lidx_main_v4 (idx_main_v11 (ix2 0 t)) k) = ix3 t 0 k := fun k => funext fun a => by
    have ht := t.isLt
    have hk := k.isLt
    match a with
    | ⟨0, _⟩ => exact Fin.ext (by show ((0 * 32768 + t.val) / 1 * 1024 + k.val) / 1024 = t.val; omega)
    | ⟨1, _⟩ => rfl
    | ⟨2, _⟩ => exact Fin.ext (by show ((0 * 32768 + t.val) / 1 * 1024 + k.val) % 1024 = k.val; omega)
  have er : ∀ k : Fin 1024, idx_main_v2 (idx_main_v3 (ridx_main_v4 (idx_main_v11 (ix2 0 t)) k)) = ix2 0 (Attn.wEnc k) := fun k => funext fun a => by
    match a with
    | ⟨0, _⟩ => rfl
    | ⟨1, _⟩ => rfl
  exact congrArg (· + Attn.decBias x0 x2 x3) (Finset.sum_congr rfl fun k _ => by rw [el k, er k])

/-! ## The maximum -/

/-- −∞ as a bit pattern is the bottom element. -/
theorem ofBits_neg_inf : Ideal.ofBits .f32 0xFF800000#32 = (⊥ : EReal) := by
  simp [Ideal.ofBits, Ideal.ieee]

/-- The reduced index with column `k` put back is (0, k). -/
theorem lift_col (h : S1x32768.Reduces [1] S1) (j : S1.Idx) (k : Fin (S1x32768.size 1)) :
    h.lift j k = ix2 0 ⟨k.val, k.isLt⟩ := by
  funext c
  apply Fin.ext
  match c with
  | ⟨0, _⟩ =>
    have h0 : (j 0).val < 1 := (j 0).isLt
    show (j 0).val = 0
    omega
  | ⟨1, _⟩ => rfl

theorem reduces_col : S1x32768.Reduces [1] S1 := by decide

/-- The reference's maximum (a fold of `max` from −∞ over the 32768 scores) is the supremum of the scores. -/
theorem max12 (j : S1.Idx) :
    val_main_v12 (F := Ideal) x0 x1 x2 x3 j = Finset.univ.sup (Attn.score x0 x1 x2 x3) := by
  unfold val_main_v12
  rw [Host.reduce_eq_fold_single FloatOps.maximumf _ _ reducesTo_S1x32768_S1_d1 reduces_col h_S_]
  have hf : (val_main_v11 (F := Ideal) x0 x1 x2 x3 ∘ reduces_col.lift j) = fun k : Fin 32768 => Attn.score x0 x1 x2 x3 k :=
    funext fun k => (congrArg (val_main_v11 (F := Ideal) x0 x1 x2 x3) (lift_col reduces_col j k)).trans (score11 x0 x1 x2 x3 _)
  have hi : val_main_cst (F := Ideal) (Shape.Idx.first h_S_) = (⊥ : EReal) := by
    rw [val_main_cst_apply, Ideal.ofBits_def, ofBits_neg_inf]
  rw [hi]
  exact congrArg (fun f => Finset.fold max (⊥ : EReal) f (Finset.univ : Finset (Fin 32768))) hf

/-- The maximum the reference subtracts (the fold joined once more with −∞) is the supremum of the scores. -/
theorem max14 (j : S1.Idx) :
    val_main_v14 (F := Ideal) x0 x1 x2 x3 j = Finset.univ.sup (Attn.score x0 x1 x2 x3) := by
  rw [val_main_v14_apply, val_main_v13_apply, val_main_cst_0_apply, max12, Ideal.ofBits_def, ofBits_neg_inf,
    Ideal.maximumf_def]
  exact max_eq_right bot_le

/-! ## The softmax -/

/-- The exponential of the shifted score of row `t`. -/
theorem exp18 (t : Fin 32768) :
    val_main_v18 (F := Ideal) x0 x1 x2 x3 (ix2 0 t)
      = Ideal.exp (Attn.score x0 x1 x2 x3 t - Finset.univ.sup (Attn.score x0 x1 x2 x3)) := by
  rw [val_main_v18_apply, val_main_v17_apply, score11, val_main_v16_apply, val_main_v15_apply, max14,
    Ideal.hostUnary_exp_def, Ideal.subf_def]

/-- The normaliser: the sum from 0 of the exponentials. -/
theorem sum19 (j : S1.Idx) :
    val_main_v19 (F := Ideal) x0 x1 x2 x3 j
      = ∑ t : Fin 32768, Ideal.exp (Attn.score x0 x1 x2 x3 t - Finset.univ.sup (Attn.score x0 x1 x2 x3)) := by
  rw [val_main_v19_apply, val_main_cst_1_apply, Ideal.ofBits_def, Ideal.ofBits_zero_f32, zero_add]
  refine Finset.sum_congr rfl fun k _ => ?_
  have e : idx_main_v19 j k = ix2 0 k := funext fun a => by
    match a with
    | ⟨0, _⟩ => exact Fin.ext (by have h : (j 0).val < 1 := (j 0).isLt; show (j 0).val = 0; omega)
    | ⟨1, _⟩ => rfl
  rw [e, exp18]

/-- The weight of row `t`. -/
theorem weight22 (t : Fin 32768) :
    val_main_v22 (F := Ideal) x0 x1 x2 x3 (ix2 0 t) = Attn.refWeight (Attn.score x0 x1 x2 x3) t := by
  rw [val_main_v22_apply, exp18, val_main_v21_apply, val_main_v20_apply, sum19, Ideal.hostDivf_def]
  rfl

/-- Column `h` of the output. -/
theorem out23 (h : Fin 1024) :
    val_main_v23 (F := Ideal) x0 x1 x2 x3 (ix2 0 h) = Attn.refOut (Attn.score x0 x1 x2 x3) x1 h := by
  rw [val_main_v23_apply]
  unfold Attn.refOut
  refine Finset.sum_congr rfl fun k _ => ?_
  have el : lidx_main_v23 (ix2 0 h) k = ix2 0 k := funext fun a => by
    match a with
    | ⟨0, _⟩ => rfl
    | ⟨1, _⟩ => rfl
  have er : idx_main_v0 (ridx_main_v23 (ix2 0 h) k) = ix3 k 0 h := funext fun a => by
    have hk := k.isLt
    have hh := h.isLt
    match a with
    | ⟨0, _⟩ => exact Fin.ext (by show (k.val * 1024 + h.val) / 1024 = k.val; omega)
    | ⟨1, _⟩ => rfl
    | ⟨2, _⟩ => exact Fin.ext (by show (k.val * 1024 + h.val) % 1024 = h.val; omega)
  rw [el, weight22, val_main_v0_apply, er]

/-! ## The two results as functions of the arguments -/

/-- The weights the reference returns are the specification's softmax weights of the scores. -/
theorem weights_eq :
    val_main_v22 (F := Ideal) x0 x1 x2 x3 = fun i => Attn.refWeight (Attn.score x0 x1 x2 x3) (i 1) := by
  funext i
  rw [eq_ix2_zero i]
  exact weight22 x0 x1 x2 x3 (i 1)

/-- The output the reference returns is the specification's weighted sum of the rows. -/
theorem output_eq :
    val_main_v23 (F := Ideal) x0 x1 x2 x3 = fun i => Attn.refOut (Attn.score x0 x1 x2 x3) x1 (i 1) := by
  funext i
  rw [eq_ix2_zero i]
  exact out23 x0 x1 x2 x3 (i 1)

/-! ## The run -/

/-- Every weakly fair execution of the reference ends with the output at the specification's weighted sum, the
    weights at the specification's softmax weights, both of the launch contents of the arguments, and the
    arguments unchanged. -/
theorem run_ref (m : (ℓ : Loc nD τ sig) → Buf (Elt Ideal) ℓ) (ρ : Dev nD → PrngReg) :
    θ_run Cert.ReferenceIdeal.defs (onTc (τ := Cert.ReferenceIdeal.τ) (Cert.ReferenceIdeal.main (F := Ideal))) ⟨m, fun _ => 0, ρ⟩
      fun r => ∀ c : Dev Cert.ReferenceIdeal.nD,
        r.2.mem ((c.tc : Thread nD τ).loc main_v23)
          = (fun i => Attn.refOut (Attn.score (m ((c.tc : Thread nD τ).loc main_arg0)) (m ((c.tc : Thread nD τ).loc main_arg1))
              (m ((c.tc : Thread nD τ).loc main_arg2)) (m ((c.tc : Thread nD τ).loc main_arg3))) (m ((c.tc : Thread nD τ).loc main_arg1)) (i 1))
        ∧ r.2.mem ((c.tc : Thread nD τ).loc main_v22)
          = (fun i => Attn.refWeight (Attn.score (m ((c.tc : Thread nD τ).loc main_arg0)) (m ((c.tc : Thread nD τ).loc main_arg1))
              (m ((c.tc : Thread nD τ).loc main_arg2)) (m ((c.tc : Thread nD τ).loc main_arg3))) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3) :=
  (θ_run Cert.ReferenceIdeal.defs _ _).mono
    (fun _ h c => ⟨((h c).1.trans (val_main_v23_eq m c)).trans (output_eq _ _ _ _),
      ((h c).2.1.trans (val_main_v22_eq _ _ _ _)).trans (weights_eq _ _ _ _),
      (h c).2.2⟩)
    (Cert.ReferenceIdeal.Value.run (F := Ideal) m ρ)

end Cert.ReferenceIdeal.RefValue

end
-- ==== Proof.lean ====
/-
  An additive-attention step over a memory of 32768 rows. Row t is scored by  ⟨E t, W₂⟩ + (⟨d, W₁⟩ + b),  the
  weights are the softmax of the scores and the output is the weighted sum of the rows.

  One program computes this as a streaming softmax: the rows are consumed in two halves, each half keeping a running
  maximum, a normaliser and a weighted sum taken against its own maximum, and the halves are merged at the end by
  rescaling each with the exponential of (its maximum − the common maximum). The other computes the direct softmax:
  one maximum, one normaliser and one weighted sum over all rows. On finite inputs the two agree entry by entry as
  extended reals, and both leave their arguments as they found them.
-/
import proofs.«170956_j42322607735440_2_alg».proof.Defs
import proofs.«170956_j42322607735440_2_alg».proof.Proof.Gen.Kernel
import proofs.«170956_j42322607735440_2_alg».proof.Proof.Gen.Kernel.Skeleton
import proofs.«170956_j42322607735440_2_alg».proof.Proof.Gen.Kernel.Launch
import proofs.«170956_j42322607735440_2_alg».proof.Proof.Gen.Kernel.Points
import proofs.«170956_j42322607735440_2_alg».proof.Proof.Gen.Kernel.Frame
import proofs.«170956_j42322607735440_2_alg».proof.Proof.Gen.KernelIdeal
import proofs.«170956_j42322607735440_2_alg».proof.Proof.Gen.KernelIdeal.Skeleton
import proofs.«170956_j42322607735440_2_alg».proof.Proof.Gen.KernelIdeal.Launch
import proofs.«170956_j42322607735440_2_alg».proof.Proof.Gen.KernelIdeal.Points
import proofs.«170956_j42322607735440_2_alg».proof.Proof.Gen.KernelIdeal.Frame
import proofs.«170956_j42322607735440_2_alg».proof.Proof.Gen.ReferenceIdeal
import proofs.«170956_j42322607735440_2_alg».proof.Proof.Gen.Pre_finite_inputs
import proofs.«170956_j42322607735440_2_alg».proof.Proof.Gen.ReferenceIdeal.Run
import proofs.«170956_j42322607735440_2_alg».proof.Proof.Gen.ReferenceIdeal.Read
import proofs.«170956_j42322607735440_2_alg».proof.Proof.KHost
import proofs.«170956_j42322607735440_2_alg».proof.Proof.KValues
import proofs.«170956_j42322607735440_2_alg».proof.Proof.RefSide
import Idealize.ShloMosaic.Adequacy
import Idealize.ShloMosaic.Init

noncomputable section

namespace Cert.Proof

open Idealize.ShloMosaic Idealize.SL.Sem Cert.Kernel

/-- The streaming program and the direct one, from memories that agree on the four arguments, both run to the same
    two results: the weighted sum of the rows and the softmax weights of the scores, as functions of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => ((fun i => Attn.refOut (Attn.score (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3)))
        (m ((c.tc : Thread Cert.KernelIdeal.nD Cert.KernelIdeal.τ).loc Cert.KernelIdeal.main_arg1)) (i 1)) : Cert.KernelIdeal.S1x1024.Idx → EReal),
    fun c => ((fun i => Attn.refWeight (Attn.score (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2)) (m ((c.tc : Thread Cert.KernelIdeal.nD Cert.KernelIdeal.τ).loc Cert.KernelIdeal.main_arg3))) (i 1)) : Cert.KernelIdeal.S1x32768.Idx → EReal), ?_, ?_⟩
  · -- the streaming side: the merged halves are the direct softmax
    exact (θ_run Cert.KernelIdeal.defs _ _).mono
      (fun r h c => ⟨(h c).1.trans (Cert.KernelIdeal.KValues.kernel_values m hpre c).1,
        (h c).2.1.trans (Cert.KernelIdeal.KValues.kernel_values m hpre c).2, (h c).2.2⟩)
      (Cert.KernelIdeal.KHost.run_tail m ρ)
  · -- the direct side: its results are the same functions, of arguments equal to the other memory's
    refine (θ_run Cert.ReferenceIdeal.defs _ _).mono (fun r h c => ?_) (Cert.ReferenceIdeal.RefValue.run_ref m' ρ')
    obtain ⟨h0, h1, h2, h3⟩ := hagree c
    refine ⟨(h c).1.trans ?_, (h c).2.1.trans ?_, (h c).2.2⟩
    · rw [h0, h1, h2, h3]; rfl
    · rw [h0, h1, h2, h3]; rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.RefValue.run_ref m ρ),
  trivial,
  algebraic⟩

end Cert.Proof

end
